-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg16 : FVec F S128x8 .f32) (main_arg17 : FVec F S8 .f32) (main_v63 : IVec S_ 1) (main_v67 : IVec S_ 1) : IVec S_ 1 :=
  let main_v68 : IVec S_ 1 := andi main_v63 main_v67
  let main_v69 : FVec F S128x8 .f32 := Host.absf main_arg16
  let main_cst_26 : FVec F S_ .f32 := constant S_ .f32 0x7F800000#32
  let main_v70 : FVec F S128x8 .f32 := broadcastInDim S128x8 ![] bcast_S_S128x8 main_cst_26
  let main_v71 : IVec S128x8 1 := cmpf .olt main_v69 main_v70
  let main_c_27 : IVec S_ 1 := constantI S_ 1 1#1
  let main_v72 : IVec S_ 1 := (fun x v => Host.reduce IntOp.andi x v reducesTo_S128x8_S_d0_1 h_S_) main_v71 main_c_27
  let main_v73 : IVec S_ 1 := andi main_v68 main_v72
  let main_v74 : FVec F S8 .f32 := Host.absf main_arg17
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S128x8 .f32) (main_arg17 : FVec F S8 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) (main_arg16 : FVec F S128x8 .f32) (main_arg17 : FVec F S8 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) (main_arg16 : FVec F S128x8 .f32) (main_arg17 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) (main_arg16 : FVec F S128x8 .f32) (main_arg17 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S512x128 : Shape := ⟨2, ![512, 128]⟩
abbrev S512 : Shape := ⟨1, ![512]⟩
abbrev S512x1 : Shape := ⟨2, ![512, 1]⟩
abbrev S1x8 : Shape := ⟨2, ![1, 8]⟩
abbrev S512x8 : Shape := ⟨2, ![512, 8]⟩

abbrev nBuf : Space → Nat
  | .hbm => 109
  | .vmem => 41
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x8, .f32⟩
  | .hbm, ⟨17, _⟩ => ⟨S8, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S128x128, .bf16⟩
  | .hbm, ⟨49, _⟩ => ⟨S128x128, .bf16⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S128x128, .bf16⟩
  | .hbm, ⟨66, _⟩ => ⟨S128x128, .bf16⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S128x128, .bf16⟩
  | .hbm, ⟨83, _⟩ => ⟨S128x128, .bf16⟩
  | .hbm, ⟨84, _⟩ => ⟨S1x128, .f32⟩
  | .hbm, ⟨85, _⟩ => ⟨S50000x128, .f32⟩
  | .hbm, ⟨86, _⟩ => ⟨S_, .f32⟩
  | .hbm, ⟨87, _⟩ => ⟨S512x128, .f32⟩
  | .hbm, ⟨88, _⟩ => ⟨S50000x1, .i32⟩
  | .hbm, ⟨89, _⟩ => ⟨S512x128, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S512, .f32⟩
  | .hbm, ⟨94, _⟩ => ⟨S50000x1, .i32⟩
  | .hbm, ⟨95, _⟩ => ⟨S512, .f32⟩
  | .hbm, ⟨96, _⟩ => ⟨S_, .f32⟩
  | .hbm, ⟨97, _⟩ => ⟨S512, .f32⟩
  | .hbm, ⟨98, _⟩ => ⟨S512, .f32⟩
  | .hbm, ⟨99, _⟩ => ⟨S512x1, .f32⟩
  | .hbm, ⟨100, _⟩ => ⟨S512x128, .f32⟩
  | .hbm, ⟨101, _⟩ => ⟨S512x128, .f32⟩
  | .hbm, ⟨102, _⟩ => ⟨S128x128, .bf16⟩
  | .hbm, ⟨103, _⟩ => ⟨S1x128, .f32⟩
  | .hbm, ⟨104, _⟩ => ⟨S128x128, .bf16⟩
  | .hbm, ⟨105, _⟩ => ⟨S1x128, .f32⟩
  | .hbm, ⟨106, _⟩ => ⟨S128x8, .bf16⟩
  | .hbm, ⟨107, _⟩ => ⟨S1x8, .f32⟩
  | .hbm, ⟨108, _⟩ => ⟨S512x8, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .bf16⟩
  | .local _ .vmem, ⟨18, _⟩ => ⟨S1x128, .f32⟩
  | .local _ .vmem, ⟨19, _⟩ => ⟨S128x128, .bf16⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .bf16⟩
  | .local _ .vmem, ⟨29, _⟩ => ⟨S1x128, .f32⟩
  | .local _ .vmem, ⟨30, _⟩ => ⟨S128x128, .bf16⟩
  | .local _ .vmem, ⟨31, _⟩ => ⟨S5000x128, .f32⟩
  | .local _ .vmem, ⟨32, _⟩ => ⟨S5000x128, .f32⟩
  | .local _ .vmem, ⟨33, _⟩ => ⟨S512x128, .f32⟩
  | .local _ .vmem, ⟨34, _⟩ => ⟨S128x128, .bf16⟩
  | .local _ .vmem, ⟨35, _⟩ => ⟨S1x128, .f32⟩
  | .local _ .vmem, ⟨36, _⟩ => ⟨S128x128, .bf16⟩
  | .local _ .vmem, ⟨37, _⟩ => ⟨S1x128, .f32⟩
  | .local _ .vmem, ⟨38, _⟩ => ⟨S128x8, .bf16⟩
  | .local _ .vmem, ⟨39, _⟩ => ⟨S1x8, .f32⟩
  | .local _ .vmem, ⟨40, _⟩ => ⟨S512x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_8 : Ref sig .tc := ⟨.hbm, 69, rfl⟩
abbrev main_v41 : Ref sig .tc := ⟨.hbm, 70, rfl⟩
abbrev main_v42 : Ref sig .tc := ⟨.hbm, 71, rfl⟩
abbrev main_c_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x8 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x8 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S8_S1x8 : S8.ShapeCasts S1x8
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S512x8_S512x8_0_0 : ∀ a, (![0, 0] : Fin 2 → Nat) a + S512x8.size a ≤ S512x8.size a
  h_S512x8 : 0 < S512x8.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x8_S512x8_1_0_0_1_n_n_wf : DotDims.WF S512x128 S128x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x8.size a ≤ S128x8.size a
  hwx3_5 : ∀ i : grid3.Coords, EltTy.bits .bf16 = 32 ∨ (Rect.block (s := S128x8) S128x8.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x8.size a ≤ S1x8.size a
  hwx3_6 : ∀ i : grid3.Coords, EltTy.bits .f32 = 32 ∨ (Rect.block (s := S1x8) S1x8.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x8.size a ≤ S512x8.size a
  hwx3_7 : ∀ i : grid3.Coords, EltTy.bits .f32 = 32 ∨ (Rect.block (s := S512x8) S512x8.size (cc3_transform_7 i) (hinb3_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x8_S512x8_1_0_0_1_n_n : DotDims S512x128 S128x8 S512x8 where
  lhsContracting := [1]
  rhsContracting := [0]
  lhsNonContracting := [0]
  rhsNonContracting := [1]
  lhsBatch := []
  rhsBatch := []
  wf := dot_S512x128_S128x8_S512x8_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v67) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S128x8.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S1x8.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S512x8.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x8 : Shape := ⟨2, ![512, 8]⟩
abbrev S1x8 : Shape := ⟨2, ![1, 8]⟩

abbrev nBuf : Space → Nat
  | .hbm => 155
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128, .f32⟩
  | 16 => ⟨S128x8, .f32⟩
  | 17 => ⟨S8, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S_, .f32⟩
  | 36 => ⟨S800000, .f32⟩
  | 37 => ⟨S_, .f32⟩
  | 38 => ⟨S50000, .f32⟩
  | 39 => ⟨S800000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S_, .f32⟩
  | 70 => ⟨S800000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S_, .f32⟩
  | 104 => ⟨S800000, .f32⟩
  | 105 => ⟨S_, .f32⟩
  | 106 => ⟨S50000, .f32⟩
  | 107 => ⟨S800000x1, .i32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S_, .f32⟩
  | 122 => ⟨S512x128, .f32⟩
  | 123 => ⟨S50000x1, .i32⟩
  | 124 => ⟨S512x128, .f32⟩
  | 125 => ⟨S_, .f32⟩
  | 126 => ⟨S50000, .f32⟩
  | 127 => ⟨S_, .f32⟩
  | _ => ⟨S50000x128, .f32⟩

abbrev hbmTy0_1 (i : Nat) : BufTy := match i % 128 with
  | 0 => ⟨S512, .f32⟩
  | 1 => ⟨S50000x1, .i32⟩
  | 2 => ⟨S512, .f32⟩
  | 3 => ⟨S_, .f32⟩
  | 4 => ⟨S512, .f32⟩
  | 5 => ⟨S512, .f32⟩
  | 6 => ⟨S512x1, .f32⟩
  | 7 => ⟨S512x128, .f32⟩
  | 8 => ⟨S512x128, .f32⟩
  | 9 => ⟨S512x128, .f32⟩
  | 10 => ⟨S1x128, .f32⟩
  | 11 => ⟨S512x128, .f32⟩
  | 12 => ⟨S512x128, .f32⟩
  | 13 => ⟨S_, .f32⟩
  | 14 => ⟨S512x128, .f32⟩
  | 15 => ⟨S512x128, .f32⟩
  | 16 => ⟨S512x128, .f32⟩
  | 17 => ⟨S1x128, .f32⟩
  | 18 => ⟨S512x128, .f32⟩
  | 19 => ⟨S512x128, .f32⟩
  | 20 => ⟨S_, .f32⟩
  | 21 => ⟨S512x128, .f32⟩
  | 22 => ⟨S512x128, .f32⟩
  | 23 => ⟨S512x8, .f32⟩
  | 24 => ⟨S1x8, .f32⟩
  | 25 => ⟨S512x8, .f32⟩
  | 26 => ⟨S512x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_cst : Ref sig .tc := ⟨.hbm, 53, rfl⟩
abbrev main_call0_v0 : Ref sig .tc := ⟨.hbm, 54, rfl⟩
abbrev main_v29 : Ref sig .tc := ⟨.hbm, 55, rfl⟩
abbrev main_c_4 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call1_cst : Ref sig .tc := ⟨.hbm, 87, rfl⟩
abbrev main_call1_v0 : Ref sig .tc := ⟨.hbm, 88, rfl⟩
abbrev main_v55 : Ref sig .tc := ⟨.hbm, 89, rfl⟩
abbrev main_c_10 : Ref sig .tc := ⟨.hbm, 90, rfl⟩
abbrev main_v56 : Ref sig .tc := ⟨.hbm, 91, rfl⟩
abbrev main_v57 : Ref sig .tc := ⟨.hbm, 92, rfl⟩
abbrev main_c_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_12 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_13 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_16 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_17 : Ref sig .tc := ⟨.hbm, 125, rfl⟩
abbrev main_v84 : Ref sig .tc := ⟨.hbm, 126, rfl⟩
abbrev main_cst_18 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call2_cst : Ref sig .tc := ⟨.hbm, 141, rfl⟩
abbrev main_call2_v0 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_call3_cst : Ref sig .tc := ⟨.hbm, 148, rfl⟩
abbrev main_call3_v0 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x8_S512x8_1_0_0_1_n_n_wf : DotDims.WF S512x128 S128x8 S512x8 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x8_S512x8_1_0_0_1_n_n : DotDims S512x128 S128x8 S512x8 where
  lhsContracting := [1]
  rhsContracting := [0]
  lhsNonContracting := [0]
  rhsNonContracting := [1]
  lhsBatch := []
  rhsBatch := []
  wf := dot_S512x128_S128x8_S512x8_1_0_0_1_n_n_wf

class Facts : Prop extends Facts₀ where

variable [Facts]
-- ==== Proof.KRun.lean ====
/-
  The idealized kernel program's run with its result named.

  Every weakly fair execution of the program terminates without a fault; the argument arrays end as launched and the
  result buffer ends at the contents the last boundary of the run assigns to it: the program is four kernel regions
  among four stretches of host operations, the contents of every buffer at each boundary are a fold from the launch
  memory, and the final state is read against the last boundary's contents, here at the result buffer as well as at
  the arguments.
-/
import proofs.«126516_j43413529428145_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: the result buffer at the last boundary's contents, the arguments unchanged. -/
theorem run_result : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩)

end Cert.KernelIdeal.KRun

end
-- ==== Proof.Spec.lean ====
/-
  The network both programs compute, written once in the reference's own operations.

  Three graph-convolution layers, a mean pool over graphs and a three-layer perceptron. A layer takes node features
  h (one row per node) and returns  mean(h) · Wrel + brel + h · Wroot, where mean(h) is, row by row, the sum of the
  source rows of the edges arriving at the node (`agg`: a row gather by source followed by a row scatter-add by
  destination) scaled by the reciprocal of the clamped in-degree max(deg, 1). The first two layers are followed by a
  rectifier. The two programs differ in one place only, how a row is scaled: the reference divides the aggregated
  row by max(deg, 1) (`meanR`), the kernel multiplies it by the column 1 / max(deg, 1) computed once (`meanK`).
  `net` takes that scaling as a parameter; `meanK_eq_meanR` says the two scalings are one function.
  The gather, the scatter-adds and the index arithmetic are never opened: both programs apply the same ones.
-/
import proofs.«126516_j43413529428145_2_alg».proof.ReferenceIdeal
import Idealize.ShloMosaic.PureOps.Ideal
import Idealize.ShloMosaic.Lib.ValueIdx

noncomputable section

namespace Cert.RefSpec

open Idealize.ShloMosaic Cert.ReferenceIdeal

variable [hR : Cert.ReferenceIdeal.Facts]
open Cert.ReferenceIdeal.Facts₀ Cert.ReferenceIdeal.Facts

/-! ## The graph: edge endpoints, aggregation, clamped in-degree -/

/-- Row 0 of the edge list: the source node of each edge. -/
def srcVec (e : IVec S2x800000 32) : IVec S800000 32 :=
  shapeCast _ (extractStridedSlice S1x800000 ![0, 0] e slices_S2x800000_S1x800000_0_0) shapeCasts_S1x800000_S800000

/-- The sources as the column of start indices of the row gather, a negative index counted from the end. -/
def srcCol (e : IVec S2x800000 32) : IVec S800000x1 32 :=
  broadcastInDim S800000x1 ![0] bcast_S800000_S800000x1_0
    (select (cmpi .slt (srcVec e) (broadcastInDim S800000 ![] bcast_S_S800000 (constantI S_ 32 0#32)))
      (addi (srcVec e) (broadcastInDim S800000 ![] bcast_S_S800000 (constantI S_ 32 50000#32))) (srcVec e))

/-- Row 1 of the edge list, the destination node of each edge, as the column of scatter indices. -/
def dstCol (e : IVec S2x800000 32) : IVec S800000x1 32 :=
  broadcastInDim S800000x1 ![0] bcast_S800000_S800000x1_0
    (shapeCast _ (extractStridedSlice S1x800000 ![1, 0] e slices_S2x800000_S1x800000_1_0) shapeCasts_S1x800000_S800000)

/-- Row n of `agg e h` is the sum of the rows h(src) over the edges src → n. -/
def agg (e : IVec S2x800000 32) (h : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32)) (dstCol e)
    (Host.gather gather_S50000x128_S800000x1_S800000x128_1_0_n_n_0_1_1128 h (srcCol e))

/-- max(deg, 1): the number of edges arriving at each node, clamped below by 1. -/
def degMax (e : IVec S2x800000 32) : FVec Ideal S50000 .f32 :=
  maximumf
    (Host.scatterAdd scatter_S50000_S800000x1_S800000_n_0_0_1
      (broadcastInDim S50000 ![] bcast_S_S50000 (constant (F := Ideal) S_ .f32 0x00000000#32)) (dstCol e)
      (broadcastInDim S800000 ![] bcast_S_S800000 (constant (F := Ideal) S_ .f32 0x3F800000#32)))
    (broadcastInDim S50000 ![] bcast_S_S50000 (constant (F := Ideal) S_ .f32 0x3F800000#32))

/-- The reference's mean: the aggregated rows divided by the clamped degree, stretched along the row. -/
def meanR (e : IVec S2x800000 32) (h : FVec Ideal S50000x128 .f32) : FVec Ideal S50000x128 .f32 :=
  Host.divf (agg e h)
    (broadcastInDim S50000x128 ![0, 1] bcast_S50000x1_S50000x128_0_1
      (broadcastInDim S50000x1 ![0] bcast_S50000_S50000x1_0 (degMax e)))

/-- The kernel's column of reciprocals 1 / max(deg, 1), one per node. -/
def invCol (hs : S50000.ShapeCasts S50000x1) (e : IVec S2x800000 32) : FVec Ideal S50000x1 .f32 :=
  shapeCast S50000x1
    (Host.divf (broadcastInDim S50000 ![] bcast_S_S50000 (constant (F := Ideal) S_ .f32 0x3F800000#32)) (degMax e)) hs

/-- A column, one entry per node, stretched along the rows of the node features. -/
def stretch (s : FVec Ideal S50000x1 .f32) : FVec Ideal S50000x128 .f32 :=
  broadcastInDim S50000x128 ![0, 1] bcast_S50000x1_S50000x128_0_1 s

/-- The kernel's mean: the aggregated rows times the column of reciprocals. -/
def meanK (hs : S50000.ShapeCasts S50000x1) (e : IVec S2x800000 32) (h : FVec Ideal S50000x128 .f32) :
    FVec Ideal S50000x128 .f32 :=
  mulf (agg e h) (stretch (invCol hs e))

/-! ## One layer, the pool, the perceptron -/

/-- A bias vector as a one-row matrix. -/
def rowOf (b : FVec Ideal S128 .f32) : FVec Ideal S1x128 .f32 := broadcastInDim S1x128 ![1] bcast_S128_S1x128_1 b

def rowOf8 (b : FVec Ideal S8 .f32) : FVec Ideal S1x8 .f32 := broadcastInDim S1x8 ![1] bcast_S8_S1x8_1 b

/-- M · Wrel + b + h · Wroot, the bias row added to every node. -/
def conv (M h : FVec Ideal S50000x128 .f32) (Wrel : FVec Ideal S128x128 .f32) (b : FVec Ideal S1x128 .f32)
    (Wroot : FVec Ideal S128x128 .f32) : FVec Ideal S50000x128 .f32 :=
  addf (addf (Host.dotGeneral dot_S50000x128_S128x128_S50000x128_1_0_0_1_n_n none M Wrel)
      (broadcastInDim S50000x128 ![0, 1] bcast_S1x128_S50000x128_0_1 b))
    (Host.dotGeneral dot_S50000x128_S128x128_S50000x128_1_0_0_1_n_n none h Wroot)

/-- The rectifier on node features. -/
def relu (x : FVec Ideal S50000x128 .f32) : FVec Ideal S50000x128 .f32 :=
  maximumf x (broadcastInDim S50000x128 ![] bcast_S_S50000x128 (constant (F := Ideal) S_ .f32 0x00000000#32))

/-- One graph convolution with the scaling `mean`. -/
def gc (mean : FVec Ideal S50000x128 .f32 → FVec Ideal S50000x128 .f32) (h : FVec Ideal S50000x128 .f32)
    (Wrel : FVec Ideal S128x128 .f32) (b : FVec Ideal S128 .f32) (Wroot : FVec Ideal S128x128 .f32) :
    FVec Ideal S50000x128 .f32 :=
  conv (mean h) h Wrel (rowOf b) Wroot

/-- The mean of the node features of each graph: the rows summed by graph, divided by the clamped node count. -/
def pooled (bt : IVec S50000 32) (h : FVec Ideal S50000x128 .f32) : FVec Ideal S512x128 .f32 :=
  Host.divf
    (Host.scatterAdd scatter_S512x128_S50000x1_S50000x128_1_0_0_1
      (broadcastInDim S512x128 ![] bcast_S_S512x128 (constant (F := Ideal) S_ .f32 0x00000000#32))
      (broadcastInDim S50000x1 ![0] bcast_S50000_S50000x1_0 bt) h)
    (broadcastInDim S512x128 ![0, 1] bcast_S512x1_S512x128_0_1
      (broadcastInDim S512x1 ![0] bcast_S512_S512x1_0
        (maximumf
          (Host.scatterAdd scatter_S512_S50000x1_S50000_n_0_0_1
            (broadcastInDim S512 ![] bcast_S_S512 (constant (F := Ideal) S_ .f32 0x00000000#32))
            (broadcastInDim S50000x1 ![0] bcast_S50000_S50000x1_0 bt)
            (broadcastInDim S50000 ![] bcast_S_S50000 (constant (F := Ideal) S_ .f32 0x3F800000#32)))
          (broadcastInDim S512 ![] bcast_S_S512 (constant (F := Ideal) S_ .f32 0x3F800000#32)))))

/-- g · W + b on graph features. -/
def dense (g : FVec Ideal S512x128 .f32) (W : FVec Ideal S128x128 .f32) (b : FVec Ideal S1x128 .f32) :
    FVec Ideal S512x128 .f32 :=
  addf (Host.dotGeneral dot_S512x128_S128x128_S512x128_1_0_0_1_n_n none g W)
    (broadcastInDim S512x128 ![0, 1] bcast_S1x128_S512x128_0_1 b)

/-- The rectifier on graph features. -/
def relu512 (x : FVec Ideal S512x128 .f32) : FVec Ideal S512x128 .f32 :=
  maximumf x (broadcastInDim S512x128 ![] bcast_S_S512x128 (constant (F := Ideal) S_ .f32 0x00000000#32))

/-- The output layer g · Wo + bo. -/
def head (g : FVec Ideal S512x128 .f32) (Wo : FVec Ideal S128x8 .f32) (bo : FVec Ideal S1x8 .f32) :
    FVec Ideal S512x8 .f32 :=
  addf (Host.dotGeneral dot_S512x128_S128x8_S512x8_1_0_0_1_n_n none g Wo)
    (broadcastInDim S512x8 ![0, 1] bcast_S1x8_S512x8_0_1 bo)

/-- The perceptron on graph features, its biases given as rows. -/
def mlp (g : FVec Ideal S512x128 .f32) (W1 : FVec Ideal S128x128 .f32) (b1 : FVec Ideal S1x128 .f32)
    (W2 : FVec Ideal S128x128 .f32) (b2 : FVec Ideal S1x128 .f32) (Wo : FVec Ideal S128x8 .f32)
    (bo : FVec Ideal S1x8 .f32) : FVec Ideal S512x8 .f32 :=
  head (relu512 (dense (relu512 (dense g W1 b1)) W2 b2)) Wo bo

/-- The three layers. -/
def body (mean : FVec Ideal S50000x128 .f32 → FVec Ideal S50000x128 .f32) (x : FVec Ideal S50000x128 .f32)
    (Wrel1 : FVec Ideal S128x128 .f32) (brel1 : FVec Ideal S128 .f32) (Wroot1 : FVec Ideal S128x128 .f32)
    (Wrel2 : FVec Ideal S128x128 .f32) (brel2 : FVec Ideal S128 .f32) (Wroot2 : FVec Ideal S128x128 .f32)
    (Wrel3 : FVec Ideal S128x128 .f32) (brel3 : FVec Ideal S128 .f32) (Wroot3 : FVec Ideal S128x128 .f32) :
    FVec Ideal S50000x128 .f32 :=
  gc mean (relu (gc mean (relu (gc mean x Wrel1 brel1 Wroot1)) Wrel2 brel2 Wroot2)) Wrel3 brel3 Wroot3

/-- The whole network with the scaling `mean`. -/
def net (mean : FVec Ideal S50000x128 .f32 → FVec Ideal S50000x128 .f32) (x : FVec Ideal S50000x128 .f32)
    (bt : IVec S50000 32)
    (Wrel1 : FVec Ideal S128x128 .f32) (brel1 : FVec Ideal S128 .f32) (Wroot1 : FVec Ideal S128x128 .f32)
    (Wrel2 : FVec Ideal S128x128 .f32) (brel2 : FVec Ideal S128 .f32) (Wroot2 : FVec Ideal S128x128 .f32)
    (Wrel3 : FVec Ideal S128x128 .f32) (brel3 : FVec Ideal S128 .f32) (Wroot3 : FVec Ideal S128x128 .f32)
    (W1 : FVec Ideal S128x128 .f32) (b1 : FVec Ideal S128 .f32) (W2 : FVec Ideal S128x128 .f32)
    (b2 : FVec Ideal S128 .f32) (Wo : FVec Ideal S128x8 .f32) (bo : FVec Ideal S8 .f32) : FVec Ideal S512x8 .f32 :=
  mlp (pooled bt (body mean x Wrel1 brel1 Wroot1 Wrel2 brel2 Wroot2 Wrel3 brel3 Wroot3))
    W1 (rowOf b1) W2 (rowOf b2) Wo (rowOf8 bo)

end Cert.RefSpec

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowCast.lean ====
/-
  A vector laid out as a one-row matrix, two spellings.

  Reshaping a length-n vector to shape [1, n] and broadcasting it along axis 1 into shape [1, n] give the same array:
  at (u, q) both read the vector's entry q (the unit coordinate u does not matter). It is the row companion of the
  column form (a vector cast to [n, 1] is its broadcast along axis 0).
-/
import proofs.«126516_j43413529428145_2_alg».proof.Proof.LibColumn
import Idealize.ShloMosaic.Lib.Pipeline.Value
import Idealize.ShloMosaic.Lib.ValueIdx
import Idealize.ShloMosaic.Lib.ValueLayout

namespace Cert.LibRowCast

open Idealize.ShloMosaic Idealize.ShloMosaic.ValueIdx

variable {α : Type}

/-- A vector `[n]` cast to a row `[1, n]` is the vector broadcast (host) along axis `[1]` to `[1, n]`. -/
theorem shapeCast_n_1n_eq_bcastInDim {n : ℕ} (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨u, q, rfl⟩ : ∃ (u : Fin 1) (q : Fin n), i = ix2 u q := ⟨i 0, i 1, eq_ix2 i⟩
  rw [shapeCast_a_1a_apply, Cert.LibColumn.bcastInDim_b_1b_apply]

end Cert.LibRowCast
-- ==== Proof.KHost1.lean ====
/-
  The idealized kernel program's buffers, boundary by boundary: the first layer.

  The program is four kernel regions among four stretches of host operations. What each buffer holds at a boundary
  is a fold from the launch memory; this module reads that fold at the buffers the first region and the later
  stretches use: before the first region the aggregated rows of the node features, the column of reciprocal clamped
  degrees, the first layer's weights and its bias as a row; after it the first layer's output, everything else kept.
  The value a region leaves in its output array is taken as a hypothesis here (`Gc0` … `Mlp3`: the region's output
  as one function of the arrays it found); it is proved from the region's own run elsewhere.
-/
import proofs.«126516_j43413529428145_2_alg».proof.Proof.Gen.KernelIdeal.Frame
import proofs.«126516_j43413529428145_2_alg».proof.Proof.Gen.ReferenceIdeal
import proofs.«126516_j43413529428145_2_alg».proof.Proof.Spec
import proofs.«126516_j43413529428145_2_alg».proof.Proof.LibRowCast

set_option maxRecDepth 16384

noncomputable section

namespace Cert.KernelIdeal.KHost

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- The reshape of the degree reciprocals into a column is well formed. -/
abbrev hs : Cert.ReferenceIdeal.S50000.ShapeCasts Cert.ReferenceIdeal.S50000x1 :=
  Cert.KernelIdeal.Facts₀.shapeCasts_S50000_S50000x1

/-! ## What a region leaves in its output array -/

/-- Region 0: the rectified first layer of the arrays it found. -/
def Gc0 : Prop := ∀ (V : (c : Dev nD) → (b : Ref sig .tc) → Buf (Elt Ideal) ((c : Thread nD τ).loc b)) (c : Dev nD),
  (dat0 (F := Ideal) V c).arrAt 6 cfg0.N
    = Cert.RefSpec.relu (Cert.RefSpec.conv (mulf (F := Ideal) (V c main_v22) (Cert.RefSpec.stretch (V c main_v12)))
        (V c main_arg0) (V c main_v23) (V c main_v25) (V c main_v24))

/-- Region 1: the rectified second layer. -/
def Gc1 : Prop := ∀ (V : (c : Dev nD) → (b : Ref sig .tc) → Buf (Elt Ideal) ((c : Thread nD τ).loc b)) (c : Dev nD),
  (dat1 (F := Ideal) V c).arrAt 6 cfg1.N
    = Cert.RefSpec.relu (Cert.RefSpec.conv (mulf (F := Ideal) (V c main_v36) (Cert.RefSpec.stretch (V c main_v12)))
        (V c main_v26) (V c main_v37) (V c main_v39) (V c main_v38))

/-- Region 2: the third layer, not rectified. -/
def Gc2 : Prop := ∀ (V : (c : Dev nD) → (b : Ref sig .tc) → Buf (Elt Ideal) ((c : Thread nD τ).loc b)) (c : Dev nD),
  (dat2 (F := Ideal) V c).arrAt 6 cfg2.N
    = Cert.RefSpec.conv (mulf (F := Ideal) (V c main_v50) (Cert.RefSpec.stretch (V c main_v12)))
        (V c main_v40) (V c main_v51) (V c main_v53) (V c main_v52)

/-- Region 3: the perceptron. -/
def Mlp3 : Prop := ∀ (V : (c : Dev nD) → (b : Ref sig .tc) → Buf (Elt Ideal) ((c : Thread nD τ).loc b)) (c : Dev nD),
  (dat3 (F := Ideal) V c).arrAt 7 cfg3.N
    = Cert.RefSpec.mlp (V c main_v66) (V c main_v67) (V c main_v68) (V c main_v69) (V c main_v70) (V c main_v71)
        (V c main_v72)

/-! ## The layers' outputs as functions of the launch memory -/

/-- The kernel's scaling of aggregated rows, over the launched edge list. -/
abbrev meanOf (c : Dev nD) : FVec Ideal Cert.ReferenceIdeal.S50000x128 .f32 → FVec Ideal Cert.ReferenceIdeal.S50000x128 .f32 :=
  Cert.RefSpec.meanK hs (m ((c : Thread nD τ).loc main_arg1))

/-- The first layer's output. -/
def H1 (c : Dev nD) : FVec Ideal Cert.ReferenceIdeal.S50000x128 .f32 :=
  Cert.RefSpec.relu (Cert.RefSpec.gc (meanOf m c) (m ((c : Thread nD τ).loc main_arg0)) (m ((c : Thread nD τ).loc main_arg3)) (m ((c : Thread nD τ).loc main_arg4)) (m ((c : Thread nD τ).loc main_arg5)))

/-- The second layer's output. -/
def H2 (c : Dev nD) : FVec Ideal Cert.ReferenceIdeal.S50000x128 .f32 :=
  Cert.RefSpec.relu (Cert.RefSpec.gc (meanOf m c) (H1 m c) (m ((c : Thread nD τ).loc main_arg6)) (m ((c : Thread nD τ).loc main_arg7)) (m ((c : Thread nD τ).loc main_arg8)))

/-- The third layer's output. -/
def H3 (c : Dev nD) : FVec Ideal Cert.ReferenceIdeal.S50000x128 .f32 :=
  Cert.RefSpec.gc (meanOf m c) (H2 m c) (m ((c : Thread nD τ).loc main_arg9)) (m ((c : Thread nD τ).loc main_arg10)) (m ((c : Thread nD τ).loc main_arg11))

/-- The destination node of each edge (row 1 of the edge list). -/
def dstVec (c : Dev nD) : IVec S800000 32 :=
  shapeCast _ (extractStridedSlice S1x800000 ![1, 0] (m ((c : Thread nD τ).loc main_arg1)) Cert.KernelIdeal.Facts₀.slices_S2x800000_S1x800000_1_0)
    Cert.KernelIdeal.Facts₀.shapeCasts_S1x800000_S800000

/-! ## Boundary 1: before region 0 -/

set_option maxHeartbeats 4000000 in
/-- The aggregated rows of the node features. -/
theorem L1_v22 (c : Dev nD) : W1 m ρ c (Proc.devRef .tc main_v22) = Cert.RefSpec.agg (m ((c : Thread nD τ).loc main_arg1)) (m ((c : Thread nD τ).loc main_arg0)) := by
  dsimp only [W1, hostOps0]
  after_results_simp
  rfl

/-- The column of reciprocal clamped degrees. -/
theorem L1_v12 (c : Dev nD) : W1 m ρ c (Proc.devRef .tc main_v12) = Cert.RefSpec.invCol hs (m ((c : Thread nD τ).loc main_arg1)) := by
  dsimp only [W1, hostOps0]
  after_results
  rfl

/-- The sources of the edges. -/
theorem L1_v1 (c : Dev nD) : W1 m ρ c (Proc.devRef .tc main_v1) = Cert.RefSpec.srcVec (m ((c : Thread nD τ).loc main_arg1)) := by
  dsimp only [W1, hostOps0]
  after_results
  rfl

/-- The destinations of the edges. -/
theorem L1_v3 (c : Dev nD) : W1 m ρ c (Proc.devRef .tc main_v3) = dstVec m c := by
  dsimp only [W1, hostOps0]
  after_results
  rfl

/-- The first layer's weights, narrowed: on the extended reals the same arrays. -/
theorem L1_v23 (c : Dev nD) : W1 m ρ c (Proc.devRef .tc main_v23) = (m ((c : Thread nD τ).loc main_arg3)) := by
  dsimp only [W1, hostOps0]
  after_results
  rfl

theorem L1_v24 (c : Dev nD) : W1 m ρ c (Proc.devRef .tc main_v24) = (m ((c : Thread nD τ).loc main_arg5)) := by
  dsimp only [W1, hostOps0]
  after_results
  rfl

/-- The first layer's bias as a one-row matrix. -/
theorem L1_v25 (c : Dev nD) : W1 m ρ c (Proc.devRef .tc main_v25) = Cert.RefSpec.rowOf (m ((c : Thread nD τ).loc main_arg4)) := by
  dsimp only [W1, hostOps0]
  after_results
  exact Cert.LibRowCast.shapeCast_n_1n_eq_bcastInDim _ _ _

/-! The arguments are not written by the first stretch. -/

theorem L1_arg0 (c : Dev nD) : W1 m ρ c (Proc.devRef .tc main_arg0) = (m ((c : Thread nD τ).loc main_arg0)) := by
  dsimp only [W1, hostOps0]
  after_results

theorem L1_arg2 (c : Dev nD) : W1 m ρ c (Proc.devRef .tc main_arg2) = (m ((c : Thread nD τ).loc main_arg2)) := by
  dsimp only [W1, hostOps0]
  after_results

theorem L1_arg6 (c : Dev nD) : W1 m ρ c (Proc.devRef .tc main_arg6) = (m ((c : Thread nD τ).loc main_arg6)) := by
  dsimp only [W1, hostOps0]
  after_results

theorem L1_arg7 (c : Dev nD) : W1 m ρ c (Proc.devRef .tc main_arg7) = (m ((c : Thread nD τ).loc main_arg7)) := by
  dsimp only [W1, hostOps0]
  after_results

theorem L1_arg8 (c : Dev nD) : W1 m ρ c (Proc.devRef .tc main_arg8) = (m ((c : Thread nD τ).loc main_arg8)) := by
  dsimp only [W1, hostOps0]
  after_results

theorem L1_arg9 (c : Dev nD) : W1 m ρ c (Proc.devRef .tc main_arg9) = (m ((c : Thread nD τ).loc main_arg9)) := by
  dsimp only [W1, hostOps0]
  after_results

theorem L1_arg10 (c : Dev nD) : W1 m ρ c (Proc.devRef .tc main_arg10) = (m ((c : Thread nD τ).loc main_arg10)) := by
  dsimp only [W1, hostOps0]
  after_results

theorem L1_arg11 (c : Dev nD) : W1 m ρ c (Proc.devRef .tc main_arg11) = (m ((c : Thread nD τ).loc main_arg11)) := by
  dsimp only [W1, hostOps0]
  after_results

theorem L1_arg12 (c : Dev nD) : W1 m ρ c (Proc.devRef .tc main_arg12) = (m ((c : Thread nD τ).loc main_arg12)) := by
  dsimp only [W1, hostOps0]
  after_results

theorem L1_arg13 (c : Dev nD) : W1 m ρ c (Proc.devRef .tc main_arg13) = (m ((c : Thread nD τ).loc main_arg13)) := by
  dsimp only [W1, hostOps0]
  after_results

theorem L1_arg14 (c : Dev nD) : W1 m ρ c (Proc.devRef .tc main_arg14) = (m ((c : Thread nD τ).loc main_arg14)) := by
  dsimp only [W1, hostOps0]
  after_results

theorem L1_arg15 (c : Dev nD) : W1 m ρ c (Proc.devRef .tc main_arg15) = (m ((c : Thread nD τ).loc main_arg15)) := by
  dsimp only [W1, hostOps0]
  after_results

theorem L1_arg16 (c : Dev nD) : W1 m ρ c (Proc.devRef .tc main_arg16) = (m ((c : Thread nD τ).loc main_arg16)) := by
  dsimp only [W1, hostOps0]
  after_results

theorem L1_arg17 (c : Dev nD) : W1 m ρ c (Proc.devRef .tc main_arg17) = (m ((c : Thread nD τ).loc main_arg17)) := by
  dsimp only [W1, hostOps0]
  after_results

/-! ## Boundary 2: after region 0 -/

/-- The first layer's output. -/
theorem L2_v26 (h0 : Gc0) (c : Dev nD) : W2 m ρ c (Proc.devRef .tc main_v26) = H1 m c := by
  refine (W2_arr m ρ c 6).trans ((h0 (V1 m ρ) c).trans ?_)
  dsimp only [V1]
  rw [L1_v22 m ρ c, L1_v12 m ρ c, L1_arg0 m ρ c, L1_v23 m ρ c, L1_v25 m ρ c, L1_v24 m ρ c]
  rfl

/-- The column of reciprocal degrees is an input of the region: its array is as entered. -/
theorem L2_v12 (c : Dev nD) : W2 m ρ c (Proc.devRef .tc main_v12) = Cert.RefSpec.invCol hs (m ((c : Thread nD τ).loc main_arg1)) :=
  ((W2_arr m ρ c 2).trans (((dat0 (V1 m ρ) c).arrAt_in 2 rfl _).trans (A_eq0 (V1 m ρ) c 2))).trans (L1_v12 m ρ c)

theorem L2_v1 (c : Dev nD) : W2 m ρ c (Proc.devRef .tc main_v1) = Cert.RefSpec.srcVec (m ((c : Thread nD τ).loc main_arg1)) :=
  (W2_of_ne m ρ c main_v1 (by decide)).trans (L1_v1 m ρ c)

theorem L2_v3 (c : Dev nD) : W2 m ρ c (Proc.devRef .tc main_v3) = dstVec m c :=
  (W2_of_ne m ρ c main_v3 (by decide)).trans (L1_v3 m ρ c)

theorem L2_arg2 (c : Dev nD) : W2 m ρ c (Proc.devRef .tc main_arg2) = (m ((c : Thread nD τ).loc main_arg2)) :=
  (W2_of_ne m ρ c main_arg2 (by decide)).trans (L1_arg2 m ρ c)

theorem L2_arg6 (c : Dev nD) : W2 m ρ c (Proc.devRef .tc main_arg6) = (m ((c : Thread nD τ).loc main_arg6)) :=
  (W2_of_ne m ρ c main_arg6 (by decide)).trans (L1_arg6 m ρ c)

theorem L2_arg7 (c : Dev nD) : W2 m ρ c (Proc.devRef .tc main_arg7) = (m ((c : Thread nD τ).loc main_arg7)) :=
  (W2_of_ne m ρ c main_arg7 (by decide)).trans (L1_arg7 m ρ c)

theorem L2_arg8 (c : Dev nD) : W2 m ρ c (Proc.devRef .tc main_arg8) = (m ((c : Thread nD τ).loc main_arg8)) :=
  (W2_of_ne m ρ c main_arg8 (by decide)).trans (L1_arg8 m ρ c)

theorem L2_arg9 (c : Dev nD) : W2 m ρ c (Proc.devRef .tc main_arg9) = (m ((c : Thread nD τ).loc main_arg9)) :=
  (W2_of_ne m ρ c main_arg9 (by decide)).trans (L1_arg9 m ρ c)

theorem L2_arg10 (c : Dev nD) : W2 m ρ c (Proc.devRef .tc main_arg10) = (m ((c : Thread nD τ).loc main_arg10)) :=
  (W2_of_ne m ρ c main_arg10 (by decide)).trans (L1_arg10 m ρ c)

theorem L2_arg11 (c : Dev nD) : W2 m ρ c (Proc.devRef .tc main_arg11) = (m ((c : Thread nD τ).loc main_arg11)) :=
  (W2_of_ne m ρ c main_arg11 (by decide)).trans (L1_arg11 m ρ c)

theorem L2_arg12 (c : Dev nD) : W2 m ρ c (Proc.devRef .tc main_arg12) = (m ((c : Thread nD τ).loc main_arg12)) :=
  (W2_of_ne m ρ c main_arg12 (by decide)).trans (L1_arg12 m ρ c)

theorem L2_arg13 (c : Dev nD) : W2 m ρ c (Proc.devRef .tc main_arg13) = (m ((c : Thread nD τ).loc main_arg13)) :=
  (W2_of_ne m ρ c main_arg13 (by decide)).trans (L1_arg13 m ρ c)

theorem L2_arg14 (c : Dev nD) : W2 m ρ c (Proc.devRef .tc main_arg14) = (m ((c : Thread nD τ).loc main_arg14)) :=
  (W2_of_ne m ρ c main_arg14 (by decide)).trans (L1_arg14 m ρ c)

theorem L2_arg15 (c : Dev nD) : W2 m ρ c (Proc.devRef .tc main_arg15) = (m ((c : Thread nD τ).loc main_arg15)) :=
  (W2_of_ne m ρ c main_arg15 (by decide)).trans (L1_arg15 m ρ c)

theorem L2_arg16 (c : Dev nD) : W2 m ρ c (Proc.devRef .tc main_arg16) = (m ((c : Thread nD τ).loc main_arg16)) :=
  (W2_of_ne m ρ c main_arg16 (by decide)).trans (L1_arg16 m ρ c)

theorem L2_arg17 (c : Dev nD) : W2 m ρ c (Proc.devRef .tc main_arg17) = (m ((c : Thread nD τ).loc main_arg17)) :=
  (W2_of_ne m ρ c main_arg17 (by decide)).trans (L1_arg17 m ρ c)

end Cert.KernelIdeal.KHost

end
-- ==== Proof.KHost2.lean ====
/-
  The idealized kernel program's buffers, boundary by boundary: the second layer.

  Before region 1 the second stretch of host operations has aggregated the first layer's output over the edges and
  laid out the second layer's parameters; region 1 leaves the second layer's output. Everything the later stretches
  read (the edge endpoints, the column of reciprocal degrees, the remaining arguments) is kept.
-/
import proofs.«126516_j43413529428145_2_alg».proof.Proof.KHost1

set_option maxRecDepth 16384

noncomputable section

namespace Cert.KernelIdeal.KHost

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-! ## Boundary 3: before region 1 -/

set_option maxHeartbeats 4000000 in
/-- The aggregated rows of the first layer's output. -/
theorem L3_v36 (h0 : Gc0) (c : Dev nD) : W3 m ρ c (Proc.devRef .tc main_v36) = Cert.RefSpec.agg (m ((c : Thread nD τ).loc main_arg1)) (H1 m c) := by
  dsimp only [W3, hostOps1]
  after_results_simp
  rw [L2_v26 m ρ h0 c, L2_v1 m ρ c, L2_v3 m ρ c]
  rfl

theorem L3_v26 (h0 : Gc0) (c : Dev nD) : W3 m ρ c (Proc.devRef .tc main_v26) = H1 m c := by
  dsimp only [W3, hostOps1]
  after_results
  exact L2_v26 m ρ h0 c

theorem L3_v12 (c : Dev nD) : W3 m ρ c (Proc.devRef .tc main_v12) = Cert.RefSpec.invCol hs (m ((c : Thread nD τ).loc main_arg1)) := by
  dsimp only [W3, hostOps1]
  after_results
  exact L2_v12 m ρ c

theorem L3_v1 (c : Dev nD) : W3 m ρ c (Proc.devRef .tc main_v1) = Cert.RefSpec.srcVec (m ((c : Thread nD τ).loc main_arg1)) := by
  dsimp only [W3, hostOps1]
  after_results
  exact L2_v1 m ρ c

theorem L3_v3 (c : Dev nD) : W3 m ρ c (Proc.devRef .tc main_v3) = dstVec m c := by
  dsimp only [W3, hostOps1]
  after_results
  exact L2_v3 m ρ c

/-- The second layer's weights, narrowed: on the extended reals the same arrays. -/
theorem L3_v37 (c : Dev nD) : W3 m ρ c (Proc.devRef .tc main_v37) = (m ((c : Thread nD τ).loc main_arg6)) := by
  dsimp only [W3, hostOps1]
  after_results
  rw [L2_arg6 m ρ c]
  rfl

theorem L3_v38 (c : Dev nD) : W3 m ρ c (Proc.devRef .tc main_v38) = (m ((c : Thread nD τ).loc main_arg8)) := by
  dsimp only [W3, hostOps1]
  after_results
  rw [L2_arg8 m ρ c]
  rfl

/-- The second layer's bias as a one-row matrix. -/
theorem L3_v39 (c : Dev nD) : W3 m ρ c (Proc.devRef .tc main_v39) = Cert.RefSpec.rowOf (m ((c : Thread nD τ).loc main_arg7)) := by
  dsimp only [W3, hostOps1]
  after_results
  rw [L2_arg7 m ρ c]
  exact Cert.LibRowCast.shapeCast_n_1n_eq_bcastInDim _ _ _

theorem L3_arg2 (c : Dev nD) : W3 m ρ c (Proc.devRef .tc main_arg2) = (m ((c : Thread nD τ).loc main_arg2)) := by
  dsimp only [W3, hostOps1]
  after_results
  exact L2_arg2 m ρ c

theorem L3_arg9 (c : Dev nD) : W3 m ρ c (Proc.devRef .tc main_arg9) = (m ((c : Thread nD τ).loc main_arg9)) := by
  dsimp only [W3, hostOps1]
  after_results
  exact L2_arg9 m ρ c

theorem L3_arg10 (c : Dev nD) : W3 m ρ c (Proc.devRef .tc main_arg10) = (m ((c : Thread nD τ).loc main_arg10)) := by
  dsimp only [W3, hostOps1]
  after_results
  exact L2_arg10 m ρ c

theorem L3_arg11 (c : Dev nD) : W3 m ρ c (Proc.devRef .tc main_arg11) = (m ((c : Thread nD τ).loc main_arg11)) := by
  dsimp only [W3, hostOps1]
  after_results
  exact L2_arg11 m ρ c

theorem L3_arg12 (c : Dev nD) : W3 m ρ c (Proc.devRef .tc main_arg12) = (m ((c : Thread nD τ).loc main_arg12)) := by
  dsimp only [W3, hostOps1]
  after_results
  exact L2_arg12 m ρ c

theorem L3_arg13 (c : Dev nD) : W3 m ρ c (Proc.devRef .tc main_arg13) = (m ((c : Thread nD τ).loc main_arg13)) := by
  dsimp only [W3, hostOps1]
  after_results
  exact L2_arg13 m ρ c

theorem L3_arg14 (c : Dev nD) : W3 m ρ c (Proc.devRef .tc main_arg14) = (m ((c : Thread nD τ).loc main_arg14)) := by
  dsimp only [W3, hostOps1]
  after_results
  exact L2_arg14 m ρ c

theorem L3_arg15 (c : Dev nD) : W3 m ρ c (Proc.devRef .tc main_arg15) = (m ((c : Thread nD τ).loc main_arg15)) := by
  dsimp only [W3, hostOps1]
  after_results
  exact L2_arg15 m ρ c

theorem L3_arg16 (c : Dev nD) : W3 m ρ c (Proc.devRef .tc main_arg16) = (m ((c : Thread nD τ).loc main_arg16)) := by
  dsimp only [W3, hostOps1]
  after_results
  exact L2_arg16 m ρ c

theorem L3_arg17 (c : Dev nD) : W3 m ρ c (Proc.devRef .tc main_arg17) = (m ((c : Thread nD τ).loc main_arg17)) := by
  dsimp only [W3, hostOps1]
  after_results
  exact L2_arg17 m ρ c

/-! ## Boundary 4: after region 1 -/

/-- The second layer's output. -/
theorem L4_v40 (h0 : Gc0) (h1 : Gc1) (c : Dev nD) : W4 m ρ c (Proc.devRef .tc main_v40) = H2 m c := by
  refine (W4_arr m ρ c 6).trans ((h1 (V3 m ρ) c).trans ?_)
  dsimp only [V3]
  rw [L3_v36 m ρ h0 c, L3_v12 m ρ c, L3_v26 m ρ h0 c, L3_v37 m ρ c, L3_v39 m ρ c, L3_v38 m ρ c]
  rfl

theorem L4_v12 (c : Dev nD) : W4 m ρ c (Proc.devRef .tc main_v12) = Cert.RefSpec.invCol hs (m ((c : Thread nD τ).loc main_arg1)) :=
  ((W4_arr m ρ c 2).trans (((dat1 (V3 m ρ) c).arrAt_in 2 rfl _).trans (A_eq1 (V3 m ρ) c 2))).trans (L3_v12 m ρ c)

theorem L4_v1 (c : Dev nD) : W4 m ρ c (Proc.devRef .tc main_v1) = Cert.RefSpec.srcVec (m ((c : Thread nD τ).loc main_arg1)) :=
  (W4_of_ne m ρ c main_v1 (by decide)).trans (L3_v1 m ρ c)

theorem L4_v3 (c : Dev nD) : W4 m ρ c (Proc.devRef .tc main_v3) = dstVec m c :=
  (W4_of_ne m ρ c main_v3 (by decide)).trans (L3_v3 m ρ c)

theorem L4_arg2 (c : Dev nD) : W4 m ρ c (Proc.devRef .tc main_arg2) = (m ((c : Thread nD τ).loc main_arg2)) :=
  (W4_of_ne m ρ c main_arg2 (by decide)).trans (L3_arg2 m ρ c)

theorem L4_arg9 (c : Dev nD) : W4 m ρ c (Proc.devRef .tc main_arg9) = (m ((c : Thread nD τ).loc main_arg9)) :=
  (W4_of_ne m ρ c main_arg9 (by decide)).trans (L3_arg9 m ρ c)

theorem L4_arg10 (c : Dev nD) : W4 m ρ c (Proc.devRef .tc main_arg10) = (m ((c : Thread nD τ).loc main_arg10)) :=
  (W4_of_ne m ρ c main_arg10 (by decide)).trans (L3_arg10 m ρ c)

theorem L4_arg11 (c : Dev nD) : W4 m ρ c (Proc.devRef .tc main_arg11) = (m ((c : Thread nD τ).loc main_arg11)) :=
  (W4_of_ne m ρ c main_arg11 (by decide)).trans (L3_arg11 m ρ c)

theorem L4_arg12 (c : Dev nD) : W4 m ρ c (Proc.devRef .tc main_arg12) = (m ((c : Thread nD τ).loc main_arg12)) :=
  (W4_of_ne m ρ c main_arg12 (by decide)).trans (L3_arg12 m ρ c)

theorem L4_arg13 (c : Dev nD) : W4 m ρ c (Proc.devRef .tc main_arg13) = (m ((c : Thread nD τ).loc main_arg13)) :=
  (W4_of_ne m ρ c main_arg13 (by decide)).trans (L3_arg13 m ρ c)

theorem L4_arg14 (c : Dev nD) : W4 m ρ c (Proc.devRef .tc main_arg14) = (m ((c : Thread nD τ).loc main_arg14)) :=
  (W4_of_ne m ρ c main_arg14 (by decide)).trans (L3_arg14 m ρ c)

theorem L4_arg15 (c : Dev nD) : W4 m ρ c (Proc.devRef .tc main_arg15) = (m ((c : Thread nD τ).loc main_arg15)) :=
  (W4_of_ne m ρ c main_arg15 (by decide)).trans (L3_arg15 m ρ c)

theorem L4_arg16 (c : Dev nD) : W4 m ρ c (Proc.devRef .tc main_arg16) = (m ((c : Thread nD τ).loc main_arg16)) :=
  (W4_of_ne m ρ c main_arg16 (by decide)).trans (L3_arg16 m ρ c)

theorem L4_arg17 (c : Dev nD) : W4 m ρ c (Proc.devRef .tc main_arg17) = (m ((c : Thread nD τ).loc main_arg17)) :=
  (W4_of_ne m ρ c main_arg17 (by decide)).trans (L3_arg17 m ρ c)

end Cert.KernelIdeal.KHost

end
-- ==== Proof.KHost3.lean ====
/-
  The idealized kernel program's buffers, boundary by boundary: the third layer.

  Before region 2 the third stretch of host operations has aggregated the second layer's output over the edges and
  laid out the third layer's parameters; region 2 leaves the third layer's output, which is not rectified.
-/
import proofs.«126516_j43413529428145_2_alg».proof.Proof.KHost2

set_option maxRecDepth 16384

noncomputable section

namespace Cert.KernelIdeal.KHost

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-! ## Boundary 5: before region 2 -/

set_option maxHeartbeats 4000000 in
/-- The aggregated rows of the second layer's output. -/
theorem L5_v50 (h0 : Gc0) (h1 : Gc1) (c : Dev nD) :
    W5 m ρ c (Proc.devRef .tc main_v50) = Cert.RefSpec.agg (m ((c : Thread nD τ).loc main_arg1)) (H2 m c) := by
  dsimp only [W5, hostOps2]
  after_results_simp
  rw [L4_v40 m ρ h0 h1 c, L4_v1 m ρ c, L4_v3 m ρ c]
  rfl

theorem L5_v40 (h0 : Gc0) (h1 : Gc1) (c : Dev nD) : W5 m ρ c (Proc.devRef .tc main_v40) = H2 m c := by
  dsimp only [W5, hostOps2]
  after_results
  exact L4_v40 m ρ h0 h1 c

theorem L5_v12 (c : Dev nD) : W5 m ρ c (Proc.devRef .tc main_v12) = Cert.RefSpec.invCol hs (m ((c : Thread nD τ).loc main_arg1)) := by
  dsimp only [W5, hostOps2]
  after_results
  exact L4_v12 m ρ c

/-- The third layer's weights, narrowed: on the extended reals the same arrays. -/
theorem L5_v51 (c : Dev nD) : W5 m ρ c (Proc.devRef .tc main_v51) = (m ((c : Thread nD τ).loc main_arg9)) := by
  dsimp only [W5, hostOps2]
  after_results
  rw [L4_arg9 m ρ c]
  rfl

theorem L5_v52 (c : Dev nD) : W5 m ρ c (Proc.devRef .tc main_v52) = (m ((c : Thread nD τ).loc main_arg11)) := by
  dsimp only [W5, hostOps2]
  after_results
  rw [L4_arg11 m ρ c]
  rfl

/-- The third layer's bias as a one-row matrix. -/
theorem L5_v53 (c : Dev nD) : W5 m ρ c (Proc.devRef .tc main_v53) = Cert.RefSpec.rowOf (m ((c : Thread nD τ).loc main_arg10)) := by
  dsimp only [W5, hostOps2]
  after_results
  rw [L4_arg10 m ρ c]
  exact Cert.LibRowCast.shapeCast_n_1n_eq_bcastInDim _ _ _

theorem L5_arg2 (c : Dev nD) : W5 m ρ c (Proc.devRef .tc main_arg2) = (m ((c : Thread nD τ).loc main_arg2)) := by
  dsimp only [W5, hostOps2]
  after_results
  exact L4_arg2 m ρ c

theorem L5_arg12 (c : Dev nD) : W5 m ρ c (Proc.devRef .tc main_arg12) = (m ((c : Thread nD τ).loc main_arg12)) := by
  dsimp only [W5, hostOps2]
  after_results
  exact L4_arg12 m ρ c

theorem L5_arg13 (c : Dev nD) : W5 m ρ c (Proc.devRef .tc main_arg13) = (m ((c : Thread nD τ).loc main_arg13)) := by
  dsimp only [W5, hostOps2]
  after_results
  exact L4_arg13 m ρ c

theorem L5_arg14 (c : Dev nD) : W5 m ρ c (Proc.devRef .tc main_arg14) = (m ((c : Thread nD τ).loc main_arg14)) := by
  dsimp only [W5, hostOps2]
  after_results
  exact L4_arg14 m ρ c

theorem L5_arg15 (c : Dev nD) : W5 m ρ c (Proc.devRef .tc main_arg15) = (m ((c : Thread nD τ).loc main_arg15)) := by
  dsimp only [W5, hostOps2]
  after_results
  exact L4_arg15 m ρ c

theorem L5_arg16 (c : Dev nD) : W5 m ρ c (Proc.devRef .tc main_arg16) = (m ((c : Thread nD τ).loc main_arg16)) := by
  dsimp only [W5, hostOps2]
  after_results
  exact L4_arg16 m ρ c

theorem L5_arg17 (c : Dev nD) : W5 m ρ c (Proc.devRef .tc main_arg17) = (m ((c : Thread nD τ).loc main_arg17)) := by
  dsimp only [W5, hostOps2]
  after_results
  exact L4_arg17 m ρ c

/-! ## Boundary 6: after region 2 -/

/-- The third layer's output. -/
theorem L6_v54 (h0 : Gc0) (h1 : Gc1) (h2 : Gc2) (c : Dev nD) : W6 m ρ c (Proc.devRef .tc main_v54) = H3 m c := by
  refine (W6_arr m ρ c 6).trans ((h2 (V5 m ρ) c).trans ?_)
  dsimp only [V5]
  rw [L5_v50 m ρ h0 h1 c, L5_v12 m ρ c, L5_v40 m ρ h0 h1 c, L5_v51 m ρ c, L5_v53 m ρ c, L5_v52 m ρ c]
  rfl

theorem L6_arg2 (c : Dev nD) : W6 m ρ c (Proc.devRef .tc main_arg2) = (m ((c : Thread nD τ).loc main_arg2)) :=
  (W6_of_ne m ρ c main_arg2 (by decide)).trans (L5_arg2 m ρ c)

theorem L6_arg12 (c : Dev nD) : W6 m ρ c (Proc.devRef .tc main_arg12) = (m ((c : Thread nD τ).loc main_arg12)) :=
  (W6_of_ne m ρ c main_arg12 (by decide)).trans (L5_arg12 m ρ c)

theorem L6_arg13 (c : Dev nD) : W6 m ρ c (Proc.devRef .tc main_arg13) = (m ((c : Thread nD τ).loc main_arg13)) :=
  (W6_of_ne m ρ c main_arg13 (by decide)).trans (L5_arg13 m ρ c)

theorem L6_arg14 (c : Dev nD) : W6 m ρ c (Proc.devRef .tc main_arg14) = (m ((c : Thread nD τ).loc main_arg14)) :=
  (W6_of_ne m ρ c main_arg14 (by decide)).trans (L5_arg14 m ρ c)

theorem L6_arg15 (c : Dev nD) : W6 m ρ c (Proc.devRef .tc main_arg15) = (m ((c : Thread nD τ).loc main_arg15)) :=
  (W6_of_ne m ρ c main_arg15 (by decide)).trans (L5_arg15 m ρ c)

theorem L6_arg16 (c : Dev nD) : W6 m ρ c (Proc.devRef .tc main_arg16) = (m ((c : Thread nD τ).loc main_arg16)) :=
  (W6_of_ne m ρ c main_arg16 (by decide)).trans (L5_arg16 m ρ c)

theorem L6_arg17 (c : Dev nD) : W6 m ρ c (Proc.devRef .tc main_arg17) = (m ((c : Thread nD τ).loc main_arg17)) :=
  (W6_of_ne m ρ c main_arg17 (by decide)).trans (L5_arg17 m ρ c)

end Cert.KernelIdeal.KHost

end
-- ==== Proof.KHost4.lean ====
/-
  The idealized kernel program's buffers, boundary by boundary: the pool, the perceptron, the result.

  Before region 3 the last stretch of host operations has averaged the third layer's output over the nodes of each
  graph and laid out the perceptron's parameters; region 3 leaves the perceptron's output in the result buffer. Read
  back through every boundary, the result is the network `Cert.RefSpec.net` of the launched arrays with the kernel's
  scaling of aggregated rows.
-/
import proofs.«126516_j43413529428145_2_alg».proof.Proof.KHost3

set_option maxRecDepth 16384

noncomputable section

namespace Cert.KernelIdeal.KHost

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-! ## Boundary 7: before region 3 -/

set_option maxHeartbeats 4000000 in
/-- The mean of the third layer's output over each graph. -/
theorem L7_v66 (h0 : Gc0) (h1 : Gc1) (h2 : Gc2) (c : Dev nD) :
    W7 m ρ c (Proc.devRef .tc main_v66) = Cert.RefSpec.pooled (m ((c : Thread nD τ).loc main_arg2)) (H3 m c) := by
  dsimp only [W7, hostOps3]
  after_results_simp
  rw [L6_v54 m ρ h0 h1 h2 c, L6_arg2 m ρ c]
  rfl

/-- The perceptron's weights, narrowed: on the extended reals the same arrays. -/
theorem L7_v67 (c : Dev nD) : W7 m ρ c (Proc.devRef .tc main_v67) = (m ((c : Thread nD τ).loc main_arg12)) := by
  dsimp only [W7, hostOps3]
  after_results
  rw [L6_arg12 m ρ c]
  rfl

theorem L7_v69 (c : Dev nD) : W7 m ρ c (Proc.devRef .tc main_v69) = (m ((c : Thread nD τ).loc main_arg14)) := by
  dsimp only [W7, hostOps3]
  after_results
  rw [L6_arg14 m ρ c]
  rfl

theorem L7_v71 (c : Dev nD) : W7 m ρ c (Proc.devRef .tc main_v71) = (m ((c : Thread nD τ).loc main_arg16)) := by
  dsimp only [W7, hostOps3]
  after_results
  rw [L6_arg16 m ρ c]
  rfl

/-- The perceptron's biases as one-row matrices. -/
theorem L7_v68 (c : Dev nD) : W7 m ρ c (Proc.devRef .tc main_v68) = Cert.RefSpec.rowOf (m ((c : Thread nD τ).loc main_arg13)) := by
  dsimp only [W7, hostOps3]
  after_results
  rw [L6_arg13 m ρ c]
  exact Cert.LibRowCast.shapeCast_n_1n_eq_bcastInDim _ _ _

theorem L7_v70 (c : Dev nD) : W7 m ρ c (Proc.devRef .tc main_v70) = Cert.RefSpec.rowOf (m ((c : Thread nD τ).loc main_arg15)) := by
  dsimp only [W7, hostOps3]
  after_results
  rw [L6_arg15 m ρ c]
  exact Cert.LibRowCast.shapeCast_n_1n_eq_bcastInDim _ _ _

theorem L7_v72 (c : Dev nD) : W7 m ρ c (Proc.devRef .tc main_v72) = Cert.RefSpec.rowOf8 (m ((c : Thread nD τ).loc main_arg17)) := by
  dsimp only [W7, hostOps3]
  after_results
  rw [L6_arg17 m ρ c]
  exact Cert.LibRowCast.shapeCast_n_1n_eq_bcastInDim _ _ _

/-! ## Boundary 8: after region 3 -/

/-- THE RESULT: the network of the launched arrays, with the kernel's scaling. -/
theorem result (h0 : Gc0) (h1 : Gc1) (h2 : Gc2) (h3 : Mlp3) (c : Dev nD) :
    W8 m ρ c (Proc.devRef .tc main_v73)
      = Cert.RefSpec.net (meanOf m c) (m ((c : Thread nD τ).loc main_arg0)) (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16))
          (m ((c : Thread nD τ).loc main_arg17)) := by
  refine (W8_arr m ρ c 7).trans ((h3 (V7 m ρ) c).trans ?_)
  dsimp only [V7]
  rw [L7_v66 m ρ h0 h1 h2 c, L7_v67 m ρ c, L7_v68 m ρ c, L7_v69 m ρ c, L7_v70 m ρ c, L7_v71 m ρ c, L7_v72 m ρ c]
  rfl

end Cert.KernelIdeal.KHost

end
-- ==== Proof.RefSide.lean ====
/-
  The reference program's result is the network `Cert.RefSpec.net` with the reference's scaling `meanR`:
  its run's term, every operation applied to the argument arrays, is that network read off layer by layer.
-/
import proofs.«126516_j43413529428145_2_alg».proof.Proof.Gen.ReferenceIdeal.Run
import proofs.«126516_j43413529428145_2_alg».proof.Proof.Spec

set_option maxRecDepth 16384

noncomputable section

namespace Cert.RefSide

open Idealize.ShloMosaic Idealize.ShloMosaic.TcCoe Idealize.SL.Sem Cert.ReferenceIdeal Cert.ReferenceIdeal.Gen

/-- The reference's result array as the network of its argument arrays: the node features, the edge list, the graph
    of each node, then the nine layer parameters and the six perceptron parameters. -/
theorem res_eq (m : (ℓ : Loc nD τ sig) → Buf (Elt Ideal) ℓ) (c : Dev nD) :
    Cert.ReferenceIdeal.Value.res_main_v106 (F := Ideal) m c
      = Cert.RefSpec.net (Cert.RefSpec.meanR (m ((c.tc : Thread nD τ).loc main_arg1)))
          (m ((c.tc : Thread nD τ).loc main_arg0)) (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17)) := by
  unfold Cert.ReferenceIdeal.Value.res_main_v106
  rfl

end Cert.RefSide

end
-- ==== Proof.Law.lean ====
/-
  The one law that joins the two programs.

  The kernel multiplies each aggregated neighbour feature by the reciprocal 1 / d of the clamped in-degree
  d = max(deg, 1), where the reference divides by d. On the extended reals division by d is, off d = 0, the product
  with the inverse of d, and 1 / d is that inverse; d itself is at least 1, so it is never 0. Hence the two agree at
  every extended real, the infinities included, and no finiteness of the inputs is used.
-/
import Idealize.ShloMosaic.PureOps.Ideal

namespace Cert.Law

open Idealize.ShloMosaic

/-- A maximum with 1 is not 0: it is at least 1. -/
theorem max_one_ne_zero (x : EReal) : max x 1 ≠ 0 := by
  have h : (0 : EReal) < max x 1 := lt_of_lt_of_le (by exact_mod_cast zero_lt_one) (le_max_right x 1)
  exact ne_of_gt h

/-- Off `d = 0`, multiplying by the quotient `1 / d` is dividing by `d`. -/
theorem mul_one_div (a d : EReal) (hd : d ≠ 0) : a * Ideal.div 1 d = Ideal.div a d := by
  unfold Ideal.div
  rw [if_neg hd, if_neg hd, one_mul]

/-- The kernel's scaled entry is the reference's quotient, for a divisor clamped below by 1. -/
theorem scale_eq_div (a x : EReal) : a * Ideal.div 1 (max x 1) = Ideal.div a (max x 1) :=
  mul_one_div a _ (max_one_ne_zero x)

end Cert.Law
-- ==== Proof.Scale.lean ====
/-
  The kernel's scaling of the aggregated rows is the reference's.

  Entry (n, f) of the kernel's mean is agg(n, f) · (1 / d(n)) and of the reference's agg(n, f) / d(n), with the one
  clamped in-degree d(n) = max(deg(n), 1) on both sides. Since d(n) is at least 1 it is not 0, and off 0 the product
  with the quotient 1 / d is the quotient by d on every extended real (Cert.Law): the two means are one function of
  the node features, whatever the aggregated rows and the degrees are.
-/
import proofs.«126516_j43413529428145_2_alg».proof.Proof.Spec
import proofs.«126516_j43413529428145_2_alg».proof.Proof.Law
import proofs.«126516_j43413529428145_2_alg».proof.Proof.LibColumn
import Idealize.ShloMosaic.PureOps.Ideal
import Idealize.ShloMosaic.Lib.ValueIdx

noncomputable section

namespace Cert.RefSpec

open Idealize.ShloMosaic Idealize.ShloMosaic.ValueIdx Cert.ReferenceIdeal

variable [hR : Cert.ReferenceIdeal.Facts]
open Cert.ReferenceIdeal.Facts₀ Cert.ReferenceIdeal.Facts

/-- The host's quotient of two arrays, entry by entry. -/
theorem hostDivf_apply {s : Shape} {φ : FTy} (a b : FVec Ideal s φ) (i : s.Idx) :
    Host.divf a b i = Ideal.div (a i) (b i) := rfl

/-- The single-precision word of 1.0 denotes the real number 1. -/
theorem ofBits_one : Ideal.ofBits .f32 0x3F800000#32 = 1 := by
  simp [Ideal.ofBits, Ideal.ieee, -EReal.coe_mul]; norm_num

/-- The clamped in-degree of a node is a maximum with 1, so it is not 0. -/
theorem degMax_ne_zero (e : IVec S2x800000 32) (i : S50000.Idx) : degMax e i ≠ 0 := by
  unfold degMax
  rw [maximumf_apply, Cert.LibColumn.bcastInDim_scalar_apply _ _ _ (fun a => a.elim0), constant_apply, ofBits_one]
  exact Cert.Law.max_one_ne_zero _

/-- The two scalings are one function. -/
theorem meanK_eq_meanR (hs : S50000.ShapeCasts S50000x1) (e : IVec S2x800000 32) : meanK hs e = meanR e := by
  funext h j
  obtain ⟨p, q, rfl⟩ : ∃ (p : Fin 50000) (q : Fin 128), j = ix2 p q := ⟨j 0, j 1, eq_ix2 j⟩
  unfold meanK meanR stretch invCol
  rw [mulf_apply, hostDivf_apply, Cert.LibColumn.bcastInDim_a1_ab_apply, Cert.LibColumn.bcastInDim_a1_ab_apply,
    Cert.LibColumn.shapeCast_a_a1_apply, Cert.LibColumn.bcastInDim_a_a1_apply, hostDivf_apply,
    Cert.LibColumn.bcastInDim_scalar_apply _ _ _ (fun a => a.elim0), constant_apply, ofBits_one]
  exact Cert.Law.mul_one_div _ _ (degMax_ne_zero e _)

end Cert.RefSpec

end
-- ==== Proof.Claims.lean ====
/-
  The five claims.

  The frames of the two kernel programs are their generated frame certificates; the reference has no kernel, and its
  frame is its run with the result dropped. The idealization rewrote no operation, so `preserves` has nothing to say.
  For `algebraic`: run from memories that agree on the arguments, the idealized kernel ends with its result at the
  network `Cert.RefSpec.net` of the launched arrays with the kernel's scaling of aggregated rows (rows times the
  column 1 / max(deg, 1)), the idealized reference at the same network with its own scaling (rows divided by
  max(deg, 1)); the two scalings are one function on the extended reals, so the results are equal entry by entry.
-/
import proofs.«126516_j43413529428145_2_alg».proof.Defs
import proofs.«126516_j43413529428145_2_alg».proof.Proof.Gen.Kernel
import proofs.«126516_j43413529428145_2_alg».proof.Proof.Gen.Kernel.Frame
import proofs.«126516_j43413529428145_2_alg».proof.Proof.Gen.KernelIdeal
import proofs.«126516_j43413529428145_2_alg».proof.Proof.Gen.KernelIdeal.Frame
import proofs.«126516_j43413529428145_2_alg».proof.Proof.Gen.ReferenceIdeal
import proofs.«126516_j43413529428145_2_alg».proof.Proof.Gen.ReferenceIdeal.Run
import proofs.«126516_j43413529428145_2_alg».proof.Proof.Gen.Pre_finite_inputs
import proofs.«126516_j43413529428145_2_alg».proof.Proof.KRun
import proofs.«126516_j43413529428145_2_alg».proof.Proof.KHost4
import proofs.«126516_j43413529428145_2_alg».proof.Proof.RefSide
import proofs.«126516_j43413529428145_2_alg».proof.Proof.Scale

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal.KHost in
/-- Both programs end at one network of the arguments: the kernel's by the walk through its boundaries, the
    reference's by its run's term, and the two scalings of aggregated rows are one function. -/
theorem algebraic (h0 : Gc0) (h1 : Gc1) (h2 : Gc2) (h3 : Mlp3) : Cert.algebraic_KernelIdeal_ReferenceIdeal := by
  intro m ρ m' ρ' _ hagree
  refine ⟨fun c => Cert.RefSpec.net (meanOf m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun r h c => ⟨(h c).1.trans (result m ρ h0 h1 h2 h3 c), (h c).2⟩) (Cert.KernelIdeal.KRun.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17⟩ := hagree c
    rw [Cert.RefSide.res_eq m' c, a0, a1, a2, a3, a4, a5, a6, a7, a8, a9, a10, a11, a12, a13, a14, a15, a16, a17]
    dsimp only [meanOf]
    rw [Cert.RefSpec.meanK_eq_meanR]

end Cert.Proof.Claims

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«126516_j43413529428145_2_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibBlockDot.lean ====
/-
  A dense product computed row block by row block is the whole product.

  For a plain [R, K] × [K, C] product into a zero accumulator (contract the left operand's axis 1 with the right
  operand's axis 0, no batch axes) whose left operand is a block of rows of an [N, K] array, the entry (p, q) of the
  block's product is the entry (P, q) of the host's product of the whole [N, K] array with the same [K, C] array,
  when row p of the block is row P of the array: both are the sum over k of (row P)(k) · right(k, q) on the
  extended reals, and the sum is over the same K terms whatever the number of rows.
-/
import proofs.«126516_j43413529428145_2_alg».proof.Proof.LibMatmulAt
import proofs.«126516_j43413529428145_2_alg».proof.Proof.LibHostDot

noncomputable section

open scoped BigOperators

namespace Cert.LibBlockDot

open Idealize.ShloMosaic Idealize.ShloMosaic.ValueIdx Cert.LibPlainDot

/-- Entry (p, q) of a row block's product into the zero accumulator is entry (P, q) of the host's whole product,
    when the block's row p is the array's row P and the right operands agree in column q. The element formats of the
    four operands are free: on the extended reals a change of format is the identity. -/
theorem matmul_block_apply {R K C N : ℕ} (Dk : DotDims ⟨2, ![R, K]⟩ ⟨2, ![K, C]⟩ ⟨2, ![R, C]⟩)
    (hlc : Dk.lhsContracting = [1]) (hrc : Dk.rhsContracting = [0]) (hln : Dk.lhsNonContracting = [0])
    (hrn : Dk.rhsNonContracting = [1]) (hlb : Dk.lhsBatch = []) (hrb : Dk.rhsBatch = [])
    (wf : DotDims.WF ⟨2, ![N, K]⟩ ⟨2, ![K, C]⟩ ⟨2, ![N, C]⟩ [1] [0] [0] [1] [] [])
    {φ₁ φ₂ ψ₁ ψ₂ : FTy} (prec prec' : Option ContractPrecision)
    (x0 : FVec Ideal ⟨2, ![R, K]⟩ φ₁) (x1 : FVec Ideal ⟨2, ![K, C]⟩ φ₂)
    (X : FVec Ideal ⟨2, ![N, K]⟩ ψ₁) (W : FVec Ideal ⟨2, ![K, C]⟩ ψ₂)
    (p : Fin R) (P : Fin N) (q : Fin C)
    (h0 : ∀ k : Fin K, (x0 (ix2 p k) : EReal) = X (ix2 P k))
    (h1 : ∀ k : Fin K, (x1 (ix2 k q) : EReal) = W (ix2 k q)) :
    matmul Dk prec x0 x1 (constant (F := Ideal) ⟨2, ![R, C]⟩ .f32 0x00000000#32) (ix2 p q)
      = Host.dotGeneral (F := Ideal) (plainDot N K C wf) prec' X W (ix2 P q) := by
  rw [Cert.LibMatmulAt.matmul_zero_apply Dk hlc hrc hln hrn hlb hrb, Cert.LibHostDot.hostDot_apply wf]
  exact Finset.sum_congr rfl fun k _ => by rw [h0 k, h1 k]

end Cert.LibBlockDot

end
-- ==== Proof.GcBody.lean ====
/-
  One graph-convolution layer's block, read at an index.

  At a grid point the body holds a block of 5000 rows of the aggregated features x0, of the node features x1 and
  of the column of reciprocal degrees x2, and the whole of the two weight matrices x3, x5 and of the bias row x4.
  It stores, at (p, q),  (∑ k, (x0(p,k) · x2(p,0)) · x3(k,q)) + x4(0,q) + ∑ k, x1(p,k) · x5(k,q), followed in the
  first two layers by the maximum with zero.  When row p of the block is row P of the arrays this is the
  specification's layer at (P, q): each product of a row block is the whole product's row, the stretched column
  and the stretched bias row read the same entries, and on the extended reals a change of format is the identity.
-/
import proofs.«126516_j43413529428145_2_alg».proof.Proof.Gen.KernelIdeal.Skeleton
import proofs.«126516_j43413529428145_2_alg».proof.Proof.Spec
import proofs.«126516_j43413529428145_2_alg».proof.Proof.LibBlockDot
import proofs.«126516_j43413529428145_2_alg».proof.Proof.LibColumn
import Idealize.ShloMosaic.Lib.ValueIdx
import Idealize.ShloMosaic.Lib.ValueLayout
import Idealize.ShloMosaic.Lib.Pipeline.Value

set_option maxRecDepth 16384

noncomputable section

namespace Cert.KernelIdeal.RegionValue

open Idealize.ShloMosaic Idealize.ShloMosaic.ValueIdx Cert.KernelIdeal Cert.KernelIdeal.Gen

variable [hR : Cert.ReferenceIdeal.Facts]

/-- A block's whole-shape rectangle starts at the origin. -/
theorem offs_zero : (![0, 0] : Fin 2 → Nat) = fun _ => 0 := funext fun a => by fin_cases a <;> rfl

/-- The reference's record of a plain [50000, 128] × [128, 128] product is the plain product's record. -/
theorem refDot_eq :
    Cert.ReferenceIdeal.dot_S50000x128_S128x128_S50000x128_1_0_0_1_n_n
      = Cert.LibPlainDot.plainDot 50000 128 128
          Cert.ReferenceIdeal.Facts₀.dot_S50000x128_S128x128_S50000x128_1_0_0_1_n_n_wf := rfl

/-- What the three bodies share: the two products of the block's rows, the bias row added to every row. -/
def gcCore (x0 x1 : FVec Ideal S5000x128 .f32) (x2 : FVec Ideal S5000x1 .f32) (x3 : FVec Ideal S128x128 .bf16)
    (x4 : FVec Ideal S1x128 .f32) (x5 : FVec Ideal S128x128 .bf16) : FVec Ideal S5000x128 .f32 :=
  addf (addf (matmul dot_S5000x128_S128x128_S5000x128_1_0_0_1_n_n none
        (truncf .bf16 (mulf x0 (broadcastTo S5000x128 x2 broadcasts_S5000x1_S5000x128)) bitsLt_bf16_f32) x3
        (constant S5000x128 .f32 0x00000000#32))
      (broadcastTo S5000x128 x4 broadcasts_S1x128_S5000x128))
    (matmul dot_S5000x128_S128x128_S5000x128_1_0_0_1_n_n none (truncf .bf16 x1 bitsLt_bf16_f32) x5
      (constant S5000x128 .f32 0x00000000#32))

theorem k0_pay1_eq (x0 : Vec Ideal S5000x128 .f32) (x2 : Vec Ideal S5000x1 .f32) (x1 : Vec Ideal S5000x128 .f32)
    (x3 x5 : Vec Ideal S128x128 .bf16) (x4 : Vec Ideal S1x128 .f32) :
    k0_pay1 (F := Ideal) x0 x2 x1 x3 x5 x4
      = maximumf (gcCore x0 x1 x2 x3 x4 x5) (broadcast S5000x128 (Scalar.ofBits .f32 0x00000000#32)) := by
  unfold k0_pay1 gcCore
  simp only [shapeCast_self]

theorem k1_pay1_eq (x0 : Vec Ideal S5000x128 .f32) (x2 : Vec Ideal S5000x1 .f32) (x1 : Vec Ideal S5000x128 .f32)
    (x3 x5 : Vec Ideal S128x128 .bf16) (x4 : Vec Ideal S1x128 .f32) :
    k1_pay1 (F := Ideal) x0 x2 x1 x3 x5 x4
      = maximumf (gcCore x0 x1 x2 x3 x4 x5) (broadcast S5000x128 (Scalar.ofBits .f32 0x00000000#32)) := by
  unfold k1_pay1 gcCore
  simp only [shapeCast_self]

theorem k2_pay1_eq (x0 : Vec Ideal S5000x128 .f32) (x2 : Vec Ideal S5000x1 .f32) (x1 : Vec Ideal S5000x128 .f32)
    (x3 x5 : Vec Ideal S128x128 .bf16) (x4 : Vec Ideal S1x128 .f32) :
    k2_pay1 (F := Ideal) x0 x2 x1 x3 x5 x4 = gcCore x0 x1 x2 x3 x4 x5 := by
  unfold k2_pay1 gcCore
  simp only [shapeCast_self]

/-- THE SHARED PART AT AN INDEX: when row p of the blocks is row P of the arrays, the block's value at (p, q) is the
    specification's layer at (P, q). -/
theorem gcCore_apply
    (x0 x1 : FVec Ideal S5000x128 .f32) (x2 : FVec Ideal S5000x1 .f32) (x3 : FVec Ideal S128x128 .bf16)
    (x4 : FVec Ideal S1x128 .f32) (x5 : FVec Ideal S128x128 .bf16)
    (A h : FVec Ideal S50000x128 .f32) (s : FVec Ideal S50000x1 .f32) (Wrel : FVec Ideal S128x128 .f32)
    (b : FVec Ideal S1x128 .f32) (Wroot : FVec Ideal S128x128 .f32)
    (p : Fin 5000) (P : Fin 50000) (q : Fin 128)
    (hA : ∀ k : Fin 128, (x0 (ix2 p k) : EReal) = A (ix2 P k))
    (hh : ∀ k : Fin 128, (x1 (ix2 p k) : EReal) = h (ix2 P k))
    (hs : (x2 (ix2 p (0 : Fin 1)) : EReal) = s (ix2 P (0 : Fin 1)))
    (hWrel : ∀ k : Fin 128, (x3 (ix2 k q) : EReal) = Wrel (ix2 k q))
    (hb : (x4 (ix2 (0 : Fin 1) q) : EReal) = b (ix2 (0 : Fin 1) q))
    (hWroot : ∀ k : Fin 128, (x5 (ix2 k q) : EReal) = Wroot (ix2 k q)) :
    gcCore x0 x1 x2 x3 x4 x5 (ix2 p q)
      = Cert.RefSpec.conv (mulf (F := Ideal) A (Cert.RefSpec.stretch s)) h Wrel b Wroot (ix2 P q) := by
  have e1 : matmul dot_S5000x128_S128x128_S5000x128_1_0_0_1_n_n none
        (truncf .bf16 (mulf x0 (broadcastTo S5000x128 x2 broadcasts_S5000x1_S5000x128)) bitsLt_bf16_f32) x3
        (constant (F := Ideal) S5000x128 .f32 0x00000000#32) (ix2 p q)
      = Host.dotGeneral (F := Ideal) Cert.ReferenceIdeal.dot_S50000x128_S128x128_S50000x128_1_0_0_1_n_n none
          (mulf (F := Ideal) A (Cert.RefSpec.stretch s)) Wrel (ix2 P q) := by
    rw [refDot_eq]
    refine Cert.LibBlockDot.matmul_block_apply (R := 5000) (K := 128) (C := 128) (N := 50000)
      dot_S5000x128_S128x128_S5000x128_1_0_0_1_n_n rfl rfl rfl rfl rfl rfl _ none none _ x3 _ Wrel p P q
      (fun k => ?_) hWrel
    show (x0 (ix2 p k) : EReal) * broadcastTo S5000x128 x2 broadcasts_S5000x1_S5000x128 (ix2 p k)
      = A (ix2 P k) * Cert.RefSpec.stretch s (ix2 P k)
    unfold Cert.RefSpec.stretch
    rw [Cert.LibColumn.broadcastTo_a1_ab_apply, Cert.LibColumn.bcastInDim_a1_ab_apply, hA k, hs]
  have e2 : broadcastTo S5000x128 x4 broadcasts_S1x128_S5000x128 (ix2 p q)
      = broadcastInDim Cert.ReferenceIdeal.S50000x128 ![0, 1]
          Cert.ReferenceIdeal.Facts₀.bcast_S1x128_S50000x128_0_1 b (ix2 P q) := by
    rw [broadcastTo_1b_ab_apply, Cert.LibColumn.bcastInDim_1b_ab_apply, hb]
  have e3 : matmul dot_S5000x128_S128x128_S5000x128_1_0_0_1_n_n none (truncf .bf16 x1 bitsLt_bf16_f32) x5
        (constant (F := Ideal) S5000x128 .f32 0x00000000#32) (ix2 p q)
      = Host.dotGeneral (F := Ideal) Cert.ReferenceIdeal.dot_S50000x128_S128x128_S50000x128_1_0_0_1_n_n none
          h Wroot (ix2 P q) := by
    rw [refDot_eq]
    exact Cert.LibBlockDot.matmul_block_apply (R := 5000) (K := 128) (C := 128) (N := 50000)
      dot_S5000x128_S128x128_S5000x128_1_0_0_1_n_n rfl rfl rfl rfl rfl rfl _ none none _ x5 h Wroot p P q
      hh hWroot
  unfold gcCore Cert.RefSpec.conv
  rw [addf_apply, addf_apply, addf_apply, addf_apply, e1, e2, e3]

/-- The zero word spread over the node features reads the zero word everywhere. -/
theorem zeros_apply (j : Cert.ReferenceIdeal.S50000x128.Idx) :
    (broadcastInDim Cert.ReferenceIdeal.S50000x128 ![] Cert.ReferenceIdeal.Facts₀.bcast_S_S50000x128
      (constant (F := Ideal) Cert.ReferenceIdeal.S_ .f32 0x00000000#32) j : EReal)
      = Ideal.ofBits .f32 0x00000000#32 := by
  rw [Cert.LibColumn.bcastInDim_scalar_apply _ _ j ix0, constant_apply]

/-- The first layer's block at (p, q) is the rectified layer at (P, q). -/
theorem k0_pay1_apply
    (x0 x1 : Vec Ideal S5000x128 .f32) (x2 : Vec Ideal S5000x1 .f32) (x3 : Vec Ideal S128x128 .bf16)
    (x4 : Vec Ideal S1x128 .f32) (x5 : Vec Ideal S128x128 .bf16)
    (A h : FVec Ideal S50000x128 .f32) (s : FVec Ideal S50000x1 .f32) (Wrel : FVec Ideal S128x128 .f32)
    (b : FVec Ideal S1x128 .f32) (Wroot : FVec Ideal S128x128 .f32)
    (p : Fin 5000) (P : Fin 50000) (q : Fin 128)
    (hA : ∀ k : Fin 128, (x0 (ix2 p k) : EReal) = A (ix2 P k))
    (hh : ∀ k : Fin 128, (x1 (ix2 p k) : EReal) = h (ix2 P k))
    (hs : (x2 (ix2 p (0 : Fin 1)) : EReal) = s (ix2 P (0 : Fin 1)))
    (hWrel : ∀ k : Fin 128, (x3 (ix2 k q) : EReal) = Wrel (ix2 k q))
    (hb : (x4 (ix2 (0 : Fin 1) q) : EReal) = b (ix2 (0 : Fin 1) q))
    (hWroot : ∀ k : Fin 128, (x5 (ix2 k q) : EReal) = Wroot (ix2 k q)) :
    k0_pay1 (F := Ideal) x0 x2 x1 x3 x5 x4 (ix2 p q)
      = Cert.RefSpec.relu (Cert.RefSpec.conv (mulf (F := Ideal) A (Cert.RefSpec.stretch s)) h Wrel b Wroot)
          (ix2 P q) := by
  rw [k0_pay1_eq]
  unfold Cert.RefSpec.relu
  rw [maximumf_apply, maximumf_apply, zeros_apply, broadcast_apply,
    gcCore_apply x0 x1 x2 x3 x4 x5 A h s Wrel b Wroot p P q hA hh hs hWrel hb hWroot]
  rfl

/-- The second layer's block at (p, q) is the rectified layer at (P, q). -/
theorem k1_pay1_apply
    (x0 x1 : Vec Ideal S5000x128 .f32) (x2 : Vec Ideal S5000x1 .f32) (x3 : Vec Ideal S128x128 .bf16)
    (x4 : Vec Ideal S1x128 .f32) (x5 : Vec Ideal S128x128 .bf16)
    (A h : FVec Ideal S50000x128 .f32) (s : FVec Ideal S50000x1 .f32) (Wrel : FVec Ideal S128x128 .f32)
    (b : FVec Ideal S1x128 .f32) (Wroot : FVec Ideal S128x128 .f32)
    (p : Fin 5000) (P : Fin 50000) (q : Fin 128)
    (hA : ∀ k : Fin 128, (x0 (ix2 p k) : EReal) = A (ix2 P k))
    (hh : ∀ k : Fin 128, (x1 (ix2 p k) : EReal) = h (ix2 P k))
    (hs : (x2 (ix2 p (0 : Fin 1)) : EReal) = s (ix2 P (0 : Fin 1)))
    (hWrel : ∀ k : Fin 128, (x3 (ix2 k q) : EReal) = Wrel (ix2 k q))
    (hb : (x4 (ix2 (0 : Fin 1) q) : EReal) = b (ix2 (0 : Fin 1) q))
    (hWroot : ∀ k : Fin 128, (x5 (ix2 k q) : EReal) = Wroot (ix2 k q)) :
    k1_pay1 (F := Ideal) x0 x2 x1 x3 x5 x4 (ix2 p q)
      = Cert.RefSpec.relu (Cert.RefSpec.conv (mulf (F := Ideal) A (Cert.RefSpec.stretch s)) h Wrel b Wroot)
          (ix2 P q) := by
  rw [k1_pay1_eq]
  unfold Cert.RefSpec.relu
  rw [maximumf_apply, maximumf_apply, zeros_apply, broadcast_apply,
    gcCore_apply x0 x1 x2 x3 x4 x5 A h s Wrel b Wroot p P q hA hh hs hWrel hb hWroot]
  rfl

/-- The third layer's block at (p, q) is the layer at (P, q), not rectified. -/
theorem k2_pay1_apply
    (x0 x1 : Vec Ideal S5000x128 .f32) (x2 : Vec Ideal S5000x1 .f32) (x3 : Vec Ideal S128x128 .bf16)
    (x4 : Vec Ideal S1x128 .f32) (x5 : Vec Ideal S128x128 .bf16)
    (A h : FVec Ideal S50000x128 .f32) (s : FVec Ideal S50000x1 .f32) (Wrel : FVec Ideal S128x128 .f32)
    (b : FVec Ideal S1x128 .f32) (Wroot : FVec Ideal S128x128 .f32)
    (p : Fin 5000) (P : Fin 50000) (q : Fin 128)
    (hA : ∀ k : Fin 128, (x0 (ix2 p k) : EReal) = A (ix2 P k))
    (hh : ∀ k : Fin 128, (x1 (ix2 p k) : EReal) = h (ix2 P k))
    (hs : (x2 (ix2 p (0 : Fin 1)) : EReal) = s (ix2 P (0 : Fin 1)))
    (hWrel : ∀ k : Fin 128, (x3 (ix2 k q) : EReal) = Wrel (ix2 k q))
    (hb : (x4 (ix2 (0 : Fin 1) q) : EReal) = b (ix2 (0 : Fin 1) q))
    (hWroot : ∀ k : Fin 128, (x5 (ix2 k q) : EReal) = Wroot (ix2 k q)) :
    k2_pay1 (F := Ideal) x0 x2 x1 x3 x5 x4 (ix2 p q)
      = Cert.RefSpec.conv (mulf (F := Ideal) A (Cert.RefSpec.stretch s)) h Wrel b Wroot (ix2 P q) := by
  rw [k2_pay1_eq]
  exact gcCore_apply x0 x1 x2 x3 x4 x5 A h s Wrel b Wroot p P q hA hh hs hWrel hb hWroot

end Cert.KernelIdeal.RegionValue

end
-- ==== Proof.Gc0.lean ====
/-
  The first graph-convolution region: its output array as one function of the arrays the region found.

  Grid point t holds rows 5000 t .. 5000 t + 4999 of the aggregated features, of the node features and of the column
  of reciprocal degrees, and the whole of the two weight matrices and of the bias row; it writes back rows
  5000 t .. 5000 t + 4999 of the output.  Row p of the block is row 5000 t + p of the arrays, so the block written
  back is that block of the rectified layer of the whole arrays; the ten blocks tile the 50000 rows.
-/
import proofs.«126516_j43413529428145_2_alg».proof.Proof.Gen.KernelIdeal.Frame
import proofs.«126516_j43413529428145_2_alg».proof.Proof.GcBody
import Idealize.ShloMosaic.Lib.Pipeline.Value

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.Pipeline (Dat)
open Idealize.ShloMosaic.ValueIdx

variable [hR : Cert.ReferenceIdeal.Facts]
variable (V : (c : Dev nD) → (b : Ref sig .tc) → Buf (Elt Ideal) ((c : Thread nD τ).loc b))

namespace R0

/-- The printed index maps over the grid: the three row-blocked inputs and the output are at block (t, 0), the
    weights and the bias row at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer of the whole arrays the region found. -/
abbrev layer0 (c : Dev nD) : FVec Ideal S50000x128 .f32 :=
  Cert.RefSpec.relu (Cert.RefSpec.conv (mulf (F := Ideal) (V c main_v22) (Cert.RefSpec.stretch (V c main_v12)))
    (V c main_arg0) (V c main_v23) (V c main_v25) (V c main_v24))

/-- Row p of the aggregated features' block at point t is row 5000 t + p of the array. -/
theorem read0_0 (c : Dev nD) (t : Fin cfg0.N) (p : Fin 5000) (k : Fin 128) (P : Fin 50000)
    (hP : P.val = t.val * 5000 + p.val) :
    ((iblk0 V c 0 t : Vec Ideal S5000x128 .f32) (ix2 p k) : EReal)
      = (V c main_v22 : S50000x128.Idx → EReal) (ix2 P k) := by
  obtain ⟨e0, e1, -⟩ := idx_facts0 t
  unfold iblk0
  rw [View.read_apply]
  show V c main_v22 _ = V c main_v22 _
  refine congrArg (V c main_v22) ?_
  funext a
  apply Fin.ext
  match a with
  | ⟨0, _⟩ => show win0_0.index t (0 : Fin 2) * 5000 + 1 * p.val = P.val; omega
  | ⟨1, _⟩ => show win0_0.index t (1 : Fin 2) * 128 + 1 * k.val = k.val; omega

/-- Row p of the node features' block at point t is row 5000 t + p of the array. -/
theorem read0_1 (c : Dev nD) (t : Fin cfg0.N) (p : Fin 5000) (k : Fin 128) (P : Fin 50000)
    (hP : P.val = t.val * 5000 + p.val) :
    ((iblk0 V c 1 t : Vec Ideal S5000x128 .f32) (ix2 p k) : EReal)
      = (V c main_arg0 : S50000x128.Idx → EReal) (ix2 P k) := by
  obtain ⟨-, -, e0, e1, -⟩ := idx_facts0 t
  unfold iblk0
  rw [View.read_apply]
  show V c main_arg0 _ = V c main_arg0 _
  refine congrArg (V c main_arg0) ?_
  funext a
  apply Fin.ext
  match a with
  | ⟨0, _⟩ => show win0_1.index t (0 : Fin 2) * 5000 + 1 * p.val = P.val; omega
  | ⟨1, _⟩ => show win0_1.index t (1 : Fin 2) * 128 + 1 * k.val = k.val; omega

/-- Entry p of the reciprocal degrees' block at point t is entry 5000 t + p of the column. -/
theorem read0_2 (c : Dev nD) (t : Fin cfg0.N) (p : Fin 5000) (P : Fin 50000)
    (hP : P.val = t.val * 5000 + p.val) :
    ((iblk0 V c 2 t : Vec Ideal S5000x1 .f32) (ix2 p (0 : Fin 1)) : EReal)
      = (V c main_v12 : S50000x1.Idx → EReal) (ix2 P (0 : Fin 1)) := by
  obtain ⟨-, -, -, -, e0, e1, -⟩ := idx_facts0 t
  unfold iblk0
  rw [View.read_apply]
  show V c main_v12 _ = V c main_v12 _
  refine congrArg (V c main_v12) ?_
  funext a
  apply Fin.ext
  match a with
  | ⟨0, _⟩ => show win0_2.index t (0 : Fin 2) * 5000 + 1 * p.val = P.val; omega
  | ⟨1, _⟩ => show win0_2.index t (1 : Fin 2) * 1 + 1 * 0 = 0; omega

/-- The first weight matrix is staged whole at every point. -/
theorem read0_3 (c : Dev nD) (t : Fin cfg0.N) (k q : Fin 128) :
    ((iblk0 V c 3 t : Vec Ideal S128x128 .bf16) (ix2 k q) : EReal)
      = (V c main_v23 : S128x128.Idx → EReal) (ix2 k q) := by
  obtain ⟨-, -, -, -, -, -, e0, e1, -⟩ := idx_facts0 t
  unfold iblk0
  rw [View.read_apply]
  show V c main_v23 _ = V c main_v23 _
  refine congrArg (V c main_v23) ?_
  funext a
  apply Fin.ext
  match a with
  | ⟨0, _⟩ => show win0_3.index t (0 : Fin 2) * 128 + 1 * k.val = k.val; omega
  | ⟨1, _⟩ => show win0_3.index t (1 : Fin 2) * 128 + 1 * q.val = q.val; omega

/-- The bias row is staged whole at every point. -/
theorem read0_4 (c : Dev nD) (t : Fin cfg0.N) (q : Fin 128) :
    ((iblk0 V c 4 t : Vec Ideal S1x128 .f32) (ix2 (0 : Fin 1) q) : EReal)
      = (V c main_v25 : S1x128.Idx → EReal) (ix2 (0 : Fin 1) q) := by
  obtain ⟨-, -, -, -, -, -, -, -, e0, e1, -⟩ := idx_facts0 t
  unfold iblk0
  rw [View.read_apply]
  show V c main_v25 _ = V c main_v25 _
  refine congrArg (V c main_v25) ?_
  funext a
  apply Fin.ext
  match a with
  | ⟨0, _⟩ => show win0_4.index t (0 : Fin 2) * 1 + 1 * 0 = 0; omega
  | ⟨1, _⟩ => show win0_4.index t (1 : Fin 2) * 128 + 1 * q.val = q.val; omega

/-- The second weight matrix is staged whole at every point. -/
theorem read0_5 (c : Dev nD) (t : Fin cfg0.N) (k q : Fin 128) :
    ((iblk0 V c 5 t : Vec Ideal S128x128 .bf16) (ix2 k q) : EReal)
      = (V c main_v24 : S128x128.Idx → EReal) (ix2 k q) := by
  obtain ⟨-, -, -, -, -, -, -, -, -, -, e0, e1, -⟩ := idx_facts0 t
  unfold iblk0
  rw [View.read_apply]
  show V c main_v24 _ = V c main_v24 _
  refine congrArg (V c main_v24) ?_
  funext a
  apply Fin.ext
  match a with
  | ⟨0, _⟩ => show win0_5.index t (0 : Fin 2) * 128 + 1 * k.val = k.val; omega
  | ⟨1, _⟩ => show win0_5.index t (1 : Fin 2) * 128 + 1 * q.val = q.val; omega

/-- What the body stores at (j0, j1) of its block at point t is the layer at (5000 t + j0, j1). -/
theorem block0_apply (c : Dev nD) (t : Fin cfg0.N) (j : S5000x128.Idx) (i : S50000x128.Idx)
    (hi0 : (i 0).val = t.val * 5000 + (j 0).val) (hi1 : (i 1).val = (j 1).val) :
    k0_pay1 (F := Ideal) (iblk0 V c 0 t) (iblk0 V c 2 t) (iblk0 V c 1 t) (iblk0 V c 3 t) (iblk0 V c 5 t)
        (iblk0 V c 4 t) j
      = layer0 V c i := by
  obtain ⟨p, q, rfl⟩ : ∃ (p : Fin 5000) (q : Fin 128), j = ix2 p q := ⟨j 0, j 1, eq_ix2 j⟩
  obtain ⟨P, q', rfl⟩ : ∃ (P : Fin 50000) (q' : Fin 128), i = ix2 P q' := ⟨i 0, i 1, eq_ix2 i⟩
  have hP : P.val = t.val * 5000 + p.val := hi0
  obtain rfl : q = q' := (Fin.ext hi1).symm
  exact k0_pay1_apply (iblk0 V c 0 t) (iblk0 V c 1 t) (iblk0 V c 2 t) (iblk0 V c 3 t) (iblk0 V c 4 t)
    (iblk0 V c 5 t) (V c main_v22) (V c main_arg0) (V c main_v12) (V c main_v23) (V c main_v25) (V c main_v24)
    p P q (fun k => read0_0 V c t p k P hP) (fun k => read0_1 V c t p k P hP) (read0_2 V c t p P hP)
    (fun k => read0_3 V c t k q) (read0_4 V c t q) (fun k => read0_5 V c t k q)

/-- WHAT POINT t WRITES BACK is block t of the layer of the whole arrays. -/
theorem flushed0_eq (c : Dev nD) (t : Fin cfg0.N) :
    (dat0 (F := Ideal) V c).flushed 6 t = ((cfg0.win 6).blk t).view.read (Elt Ideal) (layer0 V c) := by
  show (cfg0.win 6).cut (grid0.coords t) ((dat0 V c).after 6 t) = _
  rw [after0_6]
  unfold out0_6
  rw [View.canon_unit_zero offs_zero]
  simp only [View.ld_unit_zero (S := S5000x128) offs_zero, View.ld_unit_zero (S := S5000x1) offs_zero,
    View.ld_unit_zero (S := S128x128) offs_zero, View.ld_unit_zero (S := S1x128) offs_zero]
  obtain ⟨-, -, -, -, -, -, -, -, -, -, -, -, e0, e1⟩ := idx_facts0 t
  funext j
  rw [View.read_apply]
  refine block0_apply V c t j _ ?_ ?_
  · show win0_6.index t (0 : Fin 2) * 5000 + 1 * (j 0).val = t.val * 5000 + (j 0).val; omega
  · show win0_6.index t (1 : Fin 2) * 128 + 1 * (j 1).val = (j 1).val; omega

/-- An index of the output array is in point t's block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v26).slice (win0_6.rect t)).set ↔ _
  rw [View.set_slice_whole, Rect.mem_set_unit]
  exact Iff.rfl

/-- Row r of the output is written back by point r / 5000: the ten blocks tile the array. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, -, -, e0, e1⟩ := idx_facts0 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

end R0

/-- THE OUTPUT ARRAY after the region: the rectified layer of the arrays the region found. -/
theorem gc0 (c : Dev nD) :
    (dat0 (F := Ideal) V c).arrAt 6 cfg0.N
      = Cert.RefSpec.relu (Cert.RefSpec.conv (mulf (F := Ideal) (V c main_v22) (Cert.RefSpec.stretch (V c main_v12)))
          (V c main_arg0) (V c main_v23) (V c main_v25) (V c main_v24)) :=
  (dat0 V c).arrAt_eq_of_cover 6 (R0.layer0 V c) (fun t _ => R0.flushed0_eq V c t) R0.cover0

end Cert.KernelIdeal.RegionValue

end
-- ==== Proof.Gc1.lean ====
/-
  The second graph-convolution region: its output array as one function of the arrays the region found.

  Grid point t holds rows 5000 t .. 5000 t + 4999 of the aggregated features, of the first layer's output and of the
  column of reciprocal degrees, and the whole of the two weight matrices and of the bias row; it writes back rows
  5000 t .. 5000 t + 4999 of the output.  Row p of the block is row 5000 t + p of the arrays, so the block written
  back is that block of the rectified layer of the whole arrays; the ten blocks tile the 50000 rows.
-/
import proofs.«126516_j43413529428145_2_alg».proof.Proof.Gen.KernelIdeal.Frame
import proofs.«126516_j43413529428145_2_alg».proof.Proof.GcBody
import Idealize.ShloMosaic.Lib.Pipeline.Value

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.Pipeline (Dat)
open Idealize.ShloMosaic.ValueIdx

variable [hR : Cert.ReferenceIdeal.Facts]
variable (V : (c : Dev nD) → (b : Ref sig .tc) → Buf (Elt Ideal) ((c : Thread nD τ).loc b))

namespace R1

/-- The printed index maps over the grid: the three row-blocked inputs and the output are at block (t, 0), the
    weights and the bias row at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer of the whole arrays the region found. -/
abbrev layer1 (c : Dev nD) : FVec Ideal S50000x128 .f32 :=
  Cert.RefSpec.relu (Cert.RefSpec.conv (mulf (F := Ideal) (V c main_v36) (Cert.RefSpec.stretch (V c main_v12)))
    (V c main_v26) (V c main_v37) (V c main_v39) (V c main_v38))

/-- Row p of the aggregated features' block at point t is row 5000 t + p of the array. -/
theorem read1_0 (c : Dev nD) (t : Fin cfg1.N) (p : Fin 5000) (k : Fin 128) (P : Fin 50000)
    (hP : P.val = t.val * 5000 + p.val) :
    ((iblk1 V c 0 t : Vec Ideal S5000x128 .f32) (ix2 p k) : EReal)
      = (V c main_v36 : S50000x128.Idx → EReal) (ix2 P k) := by
  obtain ⟨e0, e1, -⟩ := idx_facts1 t
  unfold iblk1
  rw [View.read_apply]
  show V c main_v36 _ = V c main_v36 _
  refine congrArg (V c main_v36) ?_
  funext a
  apply Fin.ext
  match a with
  | ⟨0, _⟩ => show win1_0.index t (0 : Fin 2) * 5000 + 1 * p.val = P.val; omega
  | ⟨1, _⟩ => show win1_0.index t (1 : Fin 2) * 128 + 1 * k.val = k.val; omega

/-- Row p of the first layer's output's block at point t is row 5000 t + p of the array. -/
theorem read1_1 (c : Dev nD) (t : Fin cfg1.N) (p : Fin 5000) (k : Fin 128) (P : Fin 50000)
    (hP : P.val = t.val * 5000 + p.val) :
    ((iblk1 V c 1 t : Vec Ideal S5000x128 .f32) (ix2 p k) : EReal)
      = (V c main_v26 : S50000x128.Idx → EReal) (ix2 P k) := by
  obtain ⟨-, -, e0, e1, -⟩ := idx_facts1 t
  unfold iblk1
  rw [View.read_apply]
  show V c main_v26 _ = V c main_v26 _
  refine congrArg (V c main_v26) ?_
  funext a
  apply Fin.ext
  match a with
  | ⟨0, _⟩ => show win1_1.index t (0 : Fin 2) * 5000 + 1 * p.val = P.val; omega
  | ⟨1, _⟩ => show win1_1.index t (1 : Fin 2) * 128 + 1 * k.val = k.val; omega

/-- Entry p of the reciprocal degrees' block at point t is entry 5000 t + p of the column. -/
theorem read1_2 (c : Dev nD) (t : Fin cfg1.N) (p : Fin 5000) (P : Fin 50000)
    (hP : P.val = t.val * 5000 + p.val) :
    ((iblk1 V c 2 t : Vec Ideal S5000x1 .f32) (ix2 p (0 : Fin 1)) : EReal)
      = (V c main_v12 : S50000x1.Idx → EReal) (ix2 P (0 : Fin 1)) := by
  obtain ⟨-, -, -, -, e0, e1, -⟩ := idx_facts1 t
  unfold iblk1
  rw [View.read_apply]
  show V c main_v12 _ = V c main_v12 _
  refine congrArg (V c main_v12) ?_
  funext a
  apply Fin.ext
  match a with
  | ⟨0, _⟩ => show win1_2.index t (0 : Fin 2) * 5000 + 1 * p.val = P.val; omega
  | ⟨1, _⟩ => show win1_2.index t (1 : Fin 2) * 1 + 1 * 0 = 0; omega

/-- The first weight matrix is staged whole at every point. -/
theorem read1_3 (c : Dev nD) (t : Fin cfg1.N) (k q : Fin 128) :
    ((iblk1 V c 3 t : Vec Ideal S128x128 .bf16) (ix2 k q) : EReal)
      = (V c main_v37 : S128x128.Idx → EReal) (ix2 k q) := by
  obtain ⟨-, -, -, -, -, -, e0, e1, -⟩ := idx_facts1 t
  unfold iblk1
  rw [View.read_apply]
  show V c main_v37 _ = V c main_v37 _
  refine congrArg (V c main_v37) ?_
  funext a
  apply Fin.ext
  match a with
  | ⟨0, _⟩ => show win1_3.index t (0 : Fin 2) * 128 + 1 * k.val = k.val; omega
  | ⟨1, _⟩ => show win1_3.index t (1 : Fin 2) * 128 + 1 * q.val = q.val; omega

/-- The bias row is staged whole at every point. -/
theorem read1_4 (c : Dev nD) (t : Fin cfg1.N) (q : Fin 128) :
    ((iblk1 V c 4 t : Vec Ideal S1x128 .f32) (ix2 (0 : Fin 1) q) : EReal)
      = (V c main_v39 : S1x128.Idx → EReal) (ix2 (0 : Fin 1) q) := by
  obtain ⟨-, -, -, -, -, -, -, -, e0, e1, -⟩ := idx_facts1 t
  unfold iblk1
  rw [View.read_apply]
  show V c main_v39 _ = V c main_v39 _
  refine congrArg (V c main_v39) ?_
  funext a
  apply Fin.ext
  match a with
  | ⟨0, _⟩ => show win1_4.index t (0 : Fin 2) * 1 + 1 * 0 = 0; omega
  | ⟨1, _⟩ => show win1_4.index t (1 : Fin 2) * 128 + 1 * q.val = q.val; omega

/-- The second weight matrix is staged whole at every point. -/
theorem read1_5 (c : Dev nD) (t : Fin cfg1.N) (k q : Fin 128) :
    ((iblk1 V c 5 t : Vec Ideal S128x128 .bf16) (ix2 k q) : EReal)
      = (V c main_v38 : S128x128.Idx → EReal) (ix2 k q) := by
  obtain ⟨-, -, -, -, -, -, -, -, -, -, e0, e1, -⟩ := idx_facts1 t
  unfold iblk1
  rw [View.read_apply]
  show V c main_v38 _ = V c main_v38 _
  refine congrArg (V c main_v38) ?_
  funext a
  apply Fin.ext
  match a with
  | ⟨0, _⟩ => show win1_5.index t (0 : Fin 2) * 128 + 1 * k.val = k.val; omega
  | ⟨1, _⟩ => show win1_5.index t (1 : Fin 2) * 128 + 1 * q.val = q.val; omega

/-- What the body stores at (j0, j1) of its block at point t is the layer at (5000 t + j0, j1). -/
theorem block1_apply (c : Dev nD) (t : Fin cfg1.N) (j : S5000x128.Idx) (i : S50000x128.Idx)
    (hi0 : (i 0).val = t.val * 5000 + (j 0).val) (hi1 : (i 1).val = (j 1).val) :
    k1_pay1 (F := Ideal) (iblk1 V c 0 t) (iblk1 V c 2 t) (iblk1 V c 1 t) (iblk1 V c 3 t) (iblk1 V c 5 t)
        (iblk1 V c 4 t) j
      = layer1 V c i := by
  obtain ⟨p, q, rfl⟩ : ∃ (p : Fin 5000) (q : Fin 128), j = ix2 p q := ⟨j 0, j 1, eq_ix2 j⟩
  obtain ⟨P, q', rfl⟩ : ∃ (P : Fin 50000) (q' : Fin 128), i = ix2 P q' := ⟨i 0, i 1, eq_ix2 i⟩
  have hP : P.val = t.val * 5000 + p.val := hi0
  obtain rfl : q = q' := (Fin.ext hi1).symm
  exact k1_pay1_apply (iblk1 V c 0 t) (iblk1 V c 1 t) (iblk1 V c 2 t) (iblk1 V c 3 t) (iblk1 V c 4 t)
    (iblk1 V c 5 t) (V c main_v36) (V c main_v26) (V c main_v12) (V c main_v37) (V c main_v39) (V c main_v38)
    p P q (fun k => read1_0 V c t p k P hP) (fun k => read1_1 V c t p k P hP) (read1_2 V c t p P hP)
    (fun k => read1_3 V c t k q) (read1_4 V c t q) (fun k => read1_5 V c t k q)

/-- WHAT POINT t WRITES BACK is block t of the layer of the whole arrays. -/
theorem flushed1_eq (c : Dev nD) (t : Fin cfg1.N) :
    (dat1 (F := Ideal) V c).flushed 6 t = ((cfg1.win 6).blk t).view.read (Elt Ideal) (layer1 V c) := by
  show (cfg1.win 6).cut (grid1.coords t) ((dat1 V c).after 6 t) = _
  rw [after1_6]
  unfold out1_6
  rw [View.canon_unit_zero offs_zero]
  simp only [View.ld_unit_zero (S := S5000x128) offs_zero, View.ld_unit_zero (S := S5000x1) offs_zero,
    View.ld_unit_zero (S := S128x128) offs_zero, View.ld_unit_zero (S := S1x128) offs_zero]
  obtain ⟨-, -, -, -, -, -, -, -, -, -, -, -, e0, e1⟩ := idx_facts1 t
  funext j
  rw [View.read_apply]
  refine block1_apply V c t j _ ?_ ?_
  · show win1_6.index t (0 : Fin 2) * 5000 + 1 * (j 0).val = t.val * 5000 + (j 0).val; omega
  · show win1_6.index t (1 : Fin 2) * 128 + 1 * (j 1).val = (j 1).val; omega

/-- An index of the output array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v40).slice (win1_6.rect t)).set ↔ _
  rw [View.set_slice_whole, Rect.mem_set_unit]
  exact Iff.rfl

/-- Row r of the output is written back by point r / 5000: the ten blocks tile the array. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

end R1

/-- THE OUTPUT ARRAY after the region: the rectified layer of the arrays the region found. -/
theorem gc1 (c : Dev nD) :
    (dat1 (F := Ideal) V c).arrAt 6 cfg1.N
      = Cert.RefSpec.relu (Cert.RefSpec.conv (mulf (F := Ideal) (V c main_v36) (Cert.RefSpec.stretch (V c main_v12)))
          (V c main_v26) (V c main_v37) (V c main_v39) (V c main_v38)) :=
  (dat1 V c).arrAt_eq_of_cover 6 (R1.layer1 V c) (fun t _ => R1.flushed1_eq V c t) R1.cover1

end Cert.KernelIdeal.RegionValue

end
-- ==== Proof.Gc2.lean ====
/-
  The third graph-convolution region: its output array as one function of the arrays the region found.

  Grid point t holds rows 5000 t .. 5000 t + 4999 of the aggregated features, of the second layer's output and of the
  column of reciprocal degrees, and the whole of the two weight matrices and of the bias row; it writes back rows
  5000 t .. 5000 t + 4999 of the output.  Row p of the block is row 5000 t + p of the arrays, so the block written
  back is that block of the layer of the whole arrays (this layer is not rectified); the ten blocks tile the 50000 rows.
-/
import proofs.«126516_j43413529428145_2_alg».proof.Proof.Gen.KernelIdeal.Frame
import proofs.«126516_j43413529428145_2_alg».proof.Proof.GcBody
import Idealize.ShloMosaic.Lib.Pipeline.Value

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.Pipeline (Dat)
open Idealize.ShloMosaic.ValueIdx

variable [hR : Cert.ReferenceIdeal.Facts]
variable (V : (c : Dev nD) → (b : Ref sig .tc) → Buf (Elt Ideal) ((c : Thread nD τ).loc b))

namespace R2

/-- The printed index maps over the grid: the three row-blocked inputs and the output are at block (t, 0), the
    weights and the bias row at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The layer of the whole arrays the region found. -/
abbrev layer2 (c : Dev nD) : FVec Ideal S50000x128 .f32 :=
  Cert.RefSpec.conv (mulf (F := Ideal) (V c main_v50) (Cert.RefSpec.stretch (V c main_v12)))
    (V c main_v40) (V c main_v51) (V c main_v53) (V c main_v52)

/-- Row p of the aggregated features' block at point t is row 5000 t + p of the array. -/
theorem read2_0 (c : Dev nD) (t : Fin cfg2.N) (p : Fin 5000) (k : Fin 128) (P : Fin 50000)
    (hP : P.val = t.val * 5000 + p.val) :
    ((iblk2 V c 0 t : Vec Ideal S5000x128 .f32) (ix2 p k) : EReal)
      = (V c main_v50 : S50000x128.Idx → EReal) (ix2 P k) := by
  obtain ⟨e0, e1, -⟩ := idx_facts2 t
  unfold iblk2
  rw [View.read_apply]
  show V c main_v50 _ = V c main_v50 _
  refine congrArg (V c main_v50) ?_
  funext a
  apply Fin.ext
  match a with
  | ⟨0, _⟩ => show win2_0.index t (0 : Fin 2) * 5000 + 1 * p.val = P.val; omega
  | ⟨1, _⟩ => show win2_0.index t (1 : Fin 2) * 128 + 1 * k.val = k.val; omega

/-- Row p of the second layer's output's block at point t is row 5000 t + p of the array. -/
theorem read2_1 (c : Dev nD) (t : Fin cfg2.N) (p : Fin 5000) (k : Fin 128) (P : Fin 50000)
    (hP : P.val = t.val * 5000 + p.val) :
    ((iblk2 V c 1 t : Vec Ideal S5000x128 .f32) (ix2 p k) : EReal)
      = (V c main_v40 : S50000x128.Idx → EReal) (ix2 P k) := by
  obtain ⟨-, -, e0, e1, -⟩ := idx_facts2 t
  unfold iblk2
  rw [View.read_apply]
  show V c main_v40 _ = V c main_v40 _
  refine congrArg (V c main_v40) ?_
  funext a
  apply Fin.ext
  match a with
  | ⟨0, _⟩ => show win2_1.index t (0 : Fin 2) * 5000 + 1 * p.val = P.val; omega
  | ⟨1, _⟩ => show win2_1.index t (1 : Fin 2) * 128 + 1 * k.val = k.val; omega

/-- Entry p of the reciprocal degrees' block at point t is entry 5000 t + p of the column. -/
theorem read2_2 (c : Dev nD) (t : Fin cfg2.N) (p : Fin 5000) (P : Fin 50000)
    (hP : P.val = t.val * 5000 + p.val) :
    ((iblk2 V c 2 t : Vec Ideal S5000x1 .f32) (ix2 p (0 : Fin 1)) : EReal)
      = (V c main_v12 : S50000x1.Idx → EReal) (ix2 P (0 : Fin 1)) := by
  obtain ⟨-, -, -, -, e0, e1, -⟩ := idx_facts2 t
  unfold iblk2
  rw [View.read_apply]
  show V c main_v12 _ = V c main_v12 _
  refine congrArg (V c main_v12) ?_
  funext a
  apply Fin.ext
  match a with
  | ⟨0, _⟩ => show win2_2.index t (0 : Fin 2) * 5000 + 1 * p.val = P.val; omega
  | ⟨1, _⟩ => show win2_2.index t (1 : Fin 2) * 1 + 1 * 0 = 0; omega

/-- The first weight matrix is staged whole at every point. -/
theorem read2_3 (c : Dev nD) (t : Fin cfg2.N) (k q : Fin 128) :
    ((iblk2 V c 3 t : Vec Ideal S128x128 .bf16) (ix2 k q) : EReal)
      = (V c main_v51 : S128x128.Idx → EReal) (ix2 k q) := by
  obtain ⟨-, -, -, -, -, -, e0, e1, -⟩ := idx_facts2 t
  unfold iblk2
  rw [View.read_apply]
  show V c main_v51 _ = V c main_v51 _
  refine congrArg (V c main_v51) ?_
  funext a
  apply Fin.ext
  match a with
  | ⟨0, _⟩ => show win2_3.index t (0 : Fin 2) * 128 + 1 * k.val = k.val; omega
  | ⟨1, _⟩ => show win2_3.index t (1 : Fin 2) * 128 + 1 * q.val = q.val; omega

/-- The bias row is staged whole at every point. -/
theorem read2_4 (c : Dev nD) (t : Fin cfg2.N) (q : Fin 128) :
    ((iblk2 V c 4 t : Vec Ideal S1x128 .f32) (ix2 (0 : Fin 1) q) : EReal)
      = (V c main_v53 : S1x128.Idx → EReal) (ix2 (0 : Fin 1) q) := by
  obtain ⟨-, -, -, -, -, -, -, -, e0, e1, -⟩ := idx_facts2 t
  unfold iblk2
  rw [View.read_apply]
  show V c main_v53 _ = V c main_v53 _
  refine congrArg (V c main_v53) ?_
  funext a
  apply Fin.ext
  match a with
  | ⟨0, _⟩ => show win2_4.index t (0 : Fin 2) * 1 + 1 * 0 = 0; omega
  | ⟨1, _⟩ => show win2_4.index t (1 : Fin 2) * 128 + 1 * q.val = q.val; omega

/-- The second weight matrix is staged whole at every point. -/
theorem read2_5 (c : Dev nD) (t : Fin cfg2.N) (k q : Fin 128) :
    ((iblk2 V c 5 t : Vec Ideal S128x128 .bf16) (ix2 k q) : EReal)
      = (V c main_v52 : S128x128.Idx → EReal) (ix2 k q) := by
  obtain ⟨-, -, -, -, -, -, -, -, -, -, e0, e1, -⟩ := idx_facts2 t
  unfold iblk2
  rw [View.read_apply]
  show V c main_v52 _ = V c main_v52 _
  refine congrArg (V c main_v52) ?_
  funext a
  apply Fin.ext
  match a with
  | ⟨0, _⟩ => show win2_5.index t (0 : Fin 2) * 128 + 1 * k.val = k.val; omega
  | ⟨1, _⟩ => show win2_5.index t (1 : Fin 2) * 128 + 1 * q.val = q.val; omega

/-- What the body stores at (j0, j1) of its block at point t is the layer at (5000 t + j0, j1). -/
theorem block2_apply (c : Dev nD) (t : Fin cfg2.N) (j : S5000x128.Idx) (i : S50000x128.Idx)
    (hi0 : (i 0).val = t.val * 5000 + (j 0).val) (hi1 : (i 1).val = (j 1).val) :
    k2_pay1 (F := Ideal) (iblk2 V c 0 t) (iblk2 V c 2 t) (iblk2 V c 1 t) (iblk2 V c 3 t) (iblk2 V c 5 t)
        (iblk2 V c 4 t) j
      = layer2 V c i := by
  obtain ⟨p, q, rfl⟩ : ∃ (p : Fin 5000) (q : Fin 128), j = ix2 p q := ⟨j 0, j 1, eq_ix2 j⟩
  obtain ⟨P, q', rfl⟩ : ∃ (P : Fin 50000) (q' : Fin 128), i = ix2 P q' := ⟨i 0, i 1, eq_ix2 i⟩
  have hP : P.val = t.val * 5000 + p.val := hi0
  obtain rfl : q = q' := (Fin.ext hi1).symm
  exact k2_pay1_apply (iblk2 V c 0 t) (iblk2 V c 1 t) (iblk2 V c 2 t) (iblk2 V c 3 t) (iblk2 V c 4 t)
    (iblk2 V c 5 t) (V c main_v50) (V c main_v40) (V c main_v12) (V c main_v51) (V c main_v53) (V c main_v52)
    p P q (fun k => read2_0 V c t p k P hP) (fun k => read2_1 V c t p k P hP) (read2_2 V c t p P hP)
    (fun k => read2_3 V c t k q) (read2_4 V c t q) (fun k => read2_5 V c t k q)

/-- WHAT POINT t WRITES BACK is block t of the layer of the whole arrays. -/
theorem flushed2_eq (c : Dev nD) (t : Fin cfg2.N) :
    (dat2 (F := Ideal) V c).flushed 6 t = ((cfg2.win 6).blk t).view.read (Elt Ideal) (layer2 V c) := by
  show (cfg2.win 6).cut (grid2.coords t) ((dat2 V c).after 6 t) = _
  rw [after2_6]
  unfold out2_6
  rw [View.canon_unit_zero offs_zero]
  simp only [View.ld_unit_zero (S := S5000x128) offs_zero, View.ld_unit_zero (S := S5000x1) offs_zero,
    View.ld_unit_zero (S := S128x128) offs_zero, View.ld_unit_zero (S := S1x128) offs_zero]
  obtain ⟨-, -, -, -, -, -, -, -, -, -, -, -, e0, e1⟩ := idx_facts2 t
  funext j
  rw [View.read_apply]
  refine block2_apply V c t j _ ?_ ?_
  · show win2_6.index t (0 : Fin 2) * 5000 + 1 * (j 0).val = t.val * 5000 + (j 0).val; omega
  · show win2_6.index t (1 : Fin 2) * 128 + 1 * (j 1).val = (j 1).val; omega

/-- An index of the output array is in point t's block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v54).slice (win2_6.rect t)).set ↔ _
  rw [View.set_slice_whole, Rect.mem_set_unit]
  exact Iff.rfl

/-- Row r of the output is written back by point r / 5000: the ten blocks tile the array. -/
theorem cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by rw [show cfg2.N = 10 from N_2]; omega⟩, rfl⟩
  obtain ⟨-, -, -, -, -, -, -, -, -, -, -, -, e0, e1⟩ := idx_facts2 t
  refine ⟨t, flush2_6 t, ?_⟩
  rw [mem_blk2]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

end R2

/-- THE OUTPUT ARRAY after the region: the layer of the arrays the region found. -/
theorem gc2 (c : Dev nD) :
    (dat2 (F := Ideal) V c).arrAt 6 cfg2.N
      = Cert.RefSpec.conv (mulf (F := Ideal) (V c main_v50) (Cert.RefSpec.stretch (V c main_v12)))
          (V c main_v40) (V c main_v51) (V c main_v53) (V c main_v52) :=
  (dat2 V c).arrAt_eq_of_cover 6 (R2.layer2 V c) (fun t _ => R2.flushed2_eq V c t) R2.cover2

end Cert.KernelIdeal.RegionValue

end
-- ==== Proof.MlpBody.lean ====
/-
  The perceptron of the last region, read at an index.

  The region's one store writes, at (p, q), the value
    out(p, q) = (∑ k, a2(p, k) · Wo(k, q)) + bo(0, q),
    a2(p, j)  = max((∑ k, a1(p, k) · W2(k, j)) + b2(0, j), 0),
    a1(p, j)  = max((∑ k, g(p, k) · W1(k, j)) + b1(0, j), 0).
  On the extended reals a change of element format is the identity and a cast to the same shape is the identity, so
  each of the three products is the host's product of the same arrays, each bias row stretched over the 512 rows reads
  the row's entry, and the zero of each rectifier is the one zero word. The three layers are met bottom-up, each as an
  equality at every index (p, j), which is what the next layer's product needs of its left operand along row p.
-/
import proofs.«126516_j43413529428145_2_alg».proof.Proof.Gen.KernelIdeal.Skeleton
import proofs.«126516_j43413529428145_2_alg».proof.Proof.Spec
import proofs.«126516_j43413529428145_2_alg».proof.Proof.LibBlockDot
import proofs.«126516_j43413529428145_2_alg».proof.Proof.LibColumn
import Idealize.ShloMosaic.Lib.ValueIdx
import Idealize.ShloMosaic.Lib.ValueLayout
import Idealize.ShloMosaic.Lib.Pipeline.Value

set_option maxRecDepth 16384

noncomputable section

namespace Cert.KernelIdeal.RegionValue.Mlp

open Idealize.ShloMosaic Idealize.ShloMosaic.ValueIdx Idealize.ShloMosaic.Pipeline Cert.KernelIdeal Cert.KernelIdeal.Gen

variable [hR : Cert.ReferenceIdeal.Facts]
open Cert.ReferenceIdeal.Facts₀ Cert.ReferenceIdeal.Facts

/-- The reference's dimension numbers of the [512, 128] × [128, 128] product are the plain ones. -/
theorem refDot128 :
    Cert.ReferenceIdeal.dot_S512x128_S128x128_S512x128_1_0_0_1_n_n
      = Cert.LibPlainDot.plainDot 512 128 128 Cert.ReferenceIdeal.Facts₀.dot_S512x128_S128x128_S512x128_1_0_0_1_n_n_wf := rfl

/-- The reference's dimension numbers of the [512, 128] × [128, 8] product are the plain ones. -/
theorem refDot8 :
    Cert.ReferenceIdeal.dot_S512x128_S128x8_S512x8_1_0_0_1_n_n
      = Cert.LibPlainDot.plainDot 512 128 8 Cert.ReferenceIdeal.Facts₀.dot_S512x128_S128x8_S512x8_1_0_0_1_n_n_wf := rfl

/-- One hidden layer at (p, j): the product of a left operand that agrees with X along row p, plus the bias row,
    rectified, is the specification's rectified dense layer of X. -/
theorem hidden_at {φ : FTy} (A : FVec Ideal S512x128 φ) (X : FVec Ideal S512x128 .f32)
    (w : Vec Ideal S128x128 .bf16) (b : Vec Ideal S1x128 .f32) (p : Fin 512) (j : Fin 128)
    (h0 : ∀ k : Fin 128, (A (ix2 p k) : EReal) = X (ix2 p k)) :
    maximumf (F := Ideal)
        (addf (matmul dot_S512x128_S128x128_S512x128_1_0_0_1_n_n none A
            (shapeCast S128x128 w shapeCasts_S128x128_S128x128 : FVec Ideal S128x128 .bf16) (constant S512x128 .f32 0x00000000#32))
          (broadcastTo S512x128 (shapeCast S1x128 b shapeCasts_S1x128_S1x128) broadcasts_S1x128_S512x128))
        (broadcast S512x128 (Scalar.ofBits .f32 0x00000000#32)) (ix2 p j)
      = Cert.RefSpec.relu512 (Cert.RefSpec.dense X w b) (ix2 p j) := by
  unfold Cert.RefSpec.relu512 Cert.RefSpec.dense
  rw [maximumf_apply, maximumf_apply, addf_apply, addf_apply, broadcast_apply]
  rw [Cert.LibBlockDot.matmul_block_apply (N := 512) (ψ₁ := .f32) (ψ₂ := .f32)
      dot_S512x128_S128x128_S512x128_1_0_0_1_n_n rfl rfl rfl rfl rfl rfl
      Cert.ReferenceIdeal.Facts₀.dot_S512x128_S128x128_S512x128_1_0_0_1_n_n_wf none none A _ X w p p j h0
      (fun k => by rw [shapeCast_self]),
    broadcastTo_1b_ab_apply, shapeCast_self, Cert.LibColumn.bcastInDim_1b_ab_apply,
    Cert.LibColumn.bcastInDim_scalar_apply _ _ _ ix0, constant_apply, refDot128]
  rfl

/-- The output layer at (p, q): the product of a left operand that agrees with X along row p, plus the bias row,
    is the specification's output layer of X. -/
theorem head_at {φ : FTy} (A : FVec Ideal S512x128 φ) (X : FVec Ideal S512x128 .f32)
    (w : Vec Ideal S128x8 .bf16) (b : Vec Ideal S1x8 .f32) (p : Fin 512) (q : Fin 8)
    (h0 : ∀ k : Fin 128, (A (ix2 p k) : EReal) = X (ix2 p k)) :
    addf (F := Ideal)
        (matmul dot_S512x128_S128x8_S512x8_1_0_0_1_n_n none A
          (shapeCast S128x8 w shapeCasts_S128x8_S128x8 : FVec Ideal S128x8 .bf16) (constant S512x8 .f32 0x00000000#32))
        (broadcastTo S512x8 (shapeCast S1x8 b shapeCasts_S1x8_S1x8) broadcasts_S1x8_S512x8) (ix2 p q)
      = Cert.RefSpec.head X w b (ix2 p q) := by
  unfold Cert.RefSpec.head
  rw [addf_apply, addf_apply,
    Cert.LibBlockDot.matmul_block_apply (N := 512) (ψ₁ := .f32) (ψ₂ := .f32)
      dot_S512x128_S128x8_S512x8_1_0_0_1_n_n rfl rfl rfl rfl rfl rfl
      Cert.ReferenceIdeal.Facts₀.dot_S512x128_S128x8_S512x8_1_0_0_1_n_n_wf none none A _ X w p p q h0
      (fun k => by rw [shapeCast_self]),
    broadcastTo_1b_ab_apply, shapeCast_self, Cert.LibColumn.bcastInDim_1b_ab_apply, refDot8]

/-- THE PERCEPTRON'S PAYLOAD IS THE SPECIFICATION OF ITS LOADS: what the body stores, as a function of the seven arrays
    it loads, is the specification's perceptron of those arrays. -/
theorem mlp_payload (x0 : Vec Ideal S512x128 .f32) (x1 : Vec Ideal S128x128 .bf16) (x2 : Vec Ideal S1x128 .f32)
    (x3 : Vec Ideal S128x128 .bf16) (x4 : Vec Ideal S1x128 .f32) (x5 : Vec Ideal S128x8 .bf16)
    (x6 : Vec Ideal S1x8 .f32) :
    k3_pay1 (F := Ideal) x0 x1 x2 x3 x4 x5 x6 = Cert.RefSpec.mlp x0 x1 x2 x3 x4 x5 x6 := by
  funext j
  obtain ⟨p, q, rfl⟩ : ∃ (p : Fin 512) (q : Fin 8), j = ix2 p q := ⟨j 0, j 1, eq_ix2 j⟩
  unfold Cert.RefSpec.mlp k3_pay1
  refine head_at _ _ x5 x6 p q fun k => ?_
  refine (truncf_apply (ψ := .bf16) _ bitsLt_bf16_f32 _).trans (hidden_at _ _ x3 x4 p k fun k' => ?_)
  refine (truncf_apply (ψ := .bf16) _ bitsLt_bf16_f32 _).trans (hidden_at _ _ x1 x2 p k' fun k'' => ?_)
  exact (truncf_apply (ψ := .bf16) _ bitsLt_bf16_f32 _).trans (congrFun (shapeCast_self x0 _) _)

end Cert.KernelIdeal.RegionValue.Mlp

end
-- ==== Proof.Mlp3.lean ====
/-
  The last region's output array is the specification's perceptron of the arrays the region found.

  The region's grid has one point and every window's block is its whole array: each index map is constantly (0, 0)
  and a block's sizes are the array's. So each input window's block at the point is the window's array, the one
  write-back writes the whole output array, and what it writes is the body's payload of the seven input arrays,
  which is the specification's perceptron of them.
-/
import proofs.«126516_j43413529428145_2_alg».proof.Proof.Gen.KernelIdeal.Frame
import proofs.«126516_j43413529428145_2_alg».proof.Proof.Spec
import proofs.«126516_j43413529428145_2_alg».proof.Proof.MlpBody
import Idealize.ShloMosaic.Lib.Pipeline.Value

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.Pipeline (Dat)

variable [hR : Cert.ReferenceIdeal.Facts]
variable (V : (c : Dev nD) → (b : Ref sig .tc) → Buf (Elt Ideal) ((c : Thread nD τ).loc b))

namespace Mlp

/-- The zero offsets of the body's whole-buffer accesses. -/
theorem zeroOff : (![0, 0] : Fin 2 → Nat) = fun _ => 0 := funext fun a => by fin_cases a <;> rfl

/-- What the body leaves in the output's staging buffer is the specification's perceptron of what the seven input
    buffers hold: its one store covers the buffer, its loads read whole buffers. -/
theorem out_eq_mlp (x0 : Vec Ideal S512x128 .f32) (x1 : Vec Ideal S128x128 .bf16) (x2 : Vec Ideal S1x128 .f32)
    (x3 : Vec Ideal S128x128 .bf16) (x4 : Vec Ideal S1x128 .f32) (x5 : Vec Ideal S128x8 .bf16)
    (x6 : Vec Ideal S1x8 .f32) :
    out3_7 (F := Ideal) x0 x1 x2 x3 x4 x5 x6 = Cert.RefSpec.mlp x0 x1 x2 x3 x4 x5 x6 := by
  unfold out3_7
  rw [View.canon_unit_zero zeroOff]
  simp only [View.ld_unit_zero (S := S512x128) zeroOff, View.ld_unit_zero (S := S128x128) zeroOff,
    View.ld_unit_zero (S := S1x128) zeroOff, View.ld_unit_zero (S := S128x8) zeroOff,
    View.ld_unit_zero (S := S1x8) zeroOff]
  exact mlp_payload x0 x1 x2 x3 x4 x5 x6

/-- The printed index maps, decided over the one-point grid: every window's block index is (0, 0). -/
theorem index_zero : ∀ t : Fin cfg3.N,
    (win3_0.index t (0 : Fin 2) = 0 ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0) :=
  (by decide +kernel : ∀ t : Fin grid3.N, _)

/-- Input window 0's block at the point is the array of graph features. -/
theorem blk0 (c : Dev nD) (t : Fin cfg3.N) : (iblk3 V c 0 t : Vec Ideal S512x128 .f32) = V c main_v66 := by
  have hz : (fun a => win3_0.index t a * main_v66.ty.shape.size a) = fun _ => 0 :=
    funext fun a => by
      obtain ⟨⟨e0, e1⟩, -, -, -, -, -, -, -⟩ := index_zero t
      match a with
      | ⟨0, _⟩ => show win3_0.index t (0 : Fin 2) * 512 = 0; rw [e0]
      | ⟨1, _⟩ => show win3_0.index t (1 : Fin 2) * 128 = 0; rw [e1]
  exact Memref.read_access_unit_zero (Elt Ideal) main_v66 hz (fun a => by rw [congrFun hz a]; simp) (V c main_v66)

/-- Input window 1's block at the point is the first layer's weights. -/
theorem blk1 (c : Dev nD) (t : Fin cfg3.N) : (iblk3 V c 1 t : Vec Ideal S128x128 .bf16) = V c main_v67 := by
  have hz : (fun a => win3_1.index t a * main_v67.ty.shape.size a) = fun _ => 0 :=
    funext fun a => by
      obtain ⟨-, ⟨e0, e1⟩, -, -, -, -, -, -⟩ := index_zero t
      match a with
      | ⟨0, _⟩ => show win3_1.index t (0 : Fin 2) * 128 = 0; rw [e0]
      | ⟨1, _⟩ => show win3_1.index t (1 : Fin 2) * 128 = 0; rw [e1]
  exact Memref.read_access_unit_zero (Elt Ideal) main_v67 hz (fun a => by rw [congrFun hz a]; simp) (V c main_v67)

/-- Input window 2's block at the point is the first layer's bias row. -/
theorem blk2 (c : Dev nD) (t : Fin cfg3.N) : (iblk3 V c 2 t : Vec Ideal S1x128 .f32) = V c main_v68 := by
  have hz : (fun a => win3_2.index t a * main_v68.ty.shape.size a) = fun _ => 0 :=
    funext fun a => by
      obtain ⟨-, -, ⟨e0, e1⟩, -, -, -, -, -⟩ := index_zero t
      match a with
      | ⟨0, _⟩ => show win3_2.index t (0 : Fin 2) * 1 = 0; rw [e0]
      | ⟨1, _⟩ => show win3_2.index t (1 : Fin 2) * 128 = 0; rw [e1]
  exact Memref.read_access_unit_zero (Elt Ideal) main_v68 hz (fun a => by rw [congrFun hz a]; simp) (V c main_v68)

/-- Input window 3's block at the point is the second layer's weights. -/
theorem blk3 (c : Dev nD) (t : Fin cfg3.N) : (iblk3 V c 3 t : Vec Ideal S128x128 .bf16) = V c main_v69 := by
  have hz : (fun a => win3_3.index t a * main_v69.ty.shape.size a) = fun _ => 0 :=
    funext fun a => by
      obtain ⟨-, -, -, ⟨e0, e1⟩, -, -, -, -⟩ := index_zero t
      match a with
      | ⟨0, _⟩ => show win3_3.index t (0 : Fin 2) * 128 = 0; rw [e0]
      | ⟨1, _⟩ => show win3_3.index t (1 : Fin 2) * 128 = 0; rw [e1]
  exact Memref.read_access_unit_zero (Elt Ideal) main_v69 hz (fun a => by rw [congrFun hz a]; simp) (V c main_v69)

/-- Input window 4's block at the point is the second layer's bias row. -/
theorem blk4 (c : Dev nD) (t : Fin cfg3.N) : (iblk3 V c 4 t : Vec Ideal S1x128 .f32) = V c main_v70 := by
  have hz : (fun a => win3_4.index t a * main_v70.ty.shape.size a) = fun _ => 0 :=
    funext fun a => by
      obtain ⟨-, -, -, -, ⟨e0, e1⟩, -, -, -⟩ := index_zero t
      match a with
      | ⟨0, _⟩ => show win3_4.index t (0 : Fin 2) * 1 = 0; rw [e0]
      | ⟨1, _⟩ => show win3_4.index t (1 : Fin 2) * 128 = 0; rw [e1]
  exact Memref.read_access_unit_zero (Elt Ideal) main_v70 hz (fun a => by rw [congrFun hz a]; simp) (V c main_v70)

/-- Input window 5's block at the point is the output layer's weights. -/
theorem blk5 (c : Dev nD) (t : Fin cfg3.N) : (iblk3 V c 5 t : Vec Ideal S128x8 .bf16) = V c main_v71 := by
  have hz : (fun a => win3_5.index t a * main_v71.ty.shape.size a) = fun _ => 0 :=
    funext fun a => by
      obtain ⟨-, -, -, -, -, ⟨e0, e1⟩, -, -⟩ := index_zero t
      match a with
      | ⟨0, _⟩ => show win3_5.index t (0 : Fin 2) * 128 = 0; rw [e0]
      | ⟨1, _⟩ => show win3_5.index t (1 : Fin 2) * 8 = 0; rw [e1]
  exact Memref.read_access_unit_zero (Elt Ideal) main_v71 hz (fun a => by rw [congrFun hz a]; simp) (V c main_v71)

/-- Input window 6's block at the point is the output layer's bias row. -/
theorem blk6 (c : Dev nD) (t : Fin cfg3.N) : (iblk3 V c 6 t : Vec Ideal S1x8 .f32) = V c main_v72 := by
  have hz : (fun a => win3_6.index t a * main_v72.ty.shape.size a) = fun _ => 0 :=
    funext fun a => by
      obtain ⟨-, -, -, -, -, -, ⟨e0, e1⟩, -⟩ := index_zero t
      match a with
      | ⟨0, _⟩ => show win3_6.index t (0 : Fin 2) * 1 = 0; rw [e0]
      | ⟨1, _⟩ => show win3_6.index t (1 : Fin 2) * 8 = 0; rw [e1]
  exact Memref.read_access_unit_zero (Elt Ideal) main_v72 hz (fun a => by rw [congrFun hz a]; simp) (V c main_v72)

/-- WHAT THE ONE POINT WRITES BACK is the whole of the specification's perceptron of the arrays the region found: the
    output's block is its whole array, and each input block the payload reads is its whole array. -/
theorem flushed_eq (c : Dev nD) (t : Fin cfg3.N) :
    (dat3 (F := Ideal) V c).flushed 7 t = ((cfg3.win 7).blk t).view.read (Elt Ideal)
      (Cert.RefSpec.mlp (V c main_v66) (V c main_v67) (V c main_v68) (V c main_v69) (V c main_v70) (V c main_v71)
        (V c main_v72)) := by
  have hz : (fun a => win3_7.index t a * main_v73.ty.shape.size a) = fun _ => 0 :=
    funext fun a => by
      obtain ⟨-, -, -, -, -, -, -, ⟨e0, e1⟩⟩ := index_zero t
      match a with
      | ⟨0, _⟩ => show win3_7.index t (0 : Fin 2) * 512 = 0; rw [e0]
      | ⟨1, _⟩ => show win3_7.index t (1 : Fin 2) * 8 = 0; rw [e1]
  refine Eq.trans ?_ (Memref.read_access_unit_zero (Elt Ideal) main_v73 hz (fun a => by rw [congrFun hz a]; simp) _).symm
  show (cfg3.win 7).cut (grid3.coords t) ((dat3 V c).after 7 t) = _
  rw [after3_7]
  refine (out_eq_mlp _ _ _ _ _ _ _).trans ?_
  rw [blk0 V c t, blk1 V c t, blk2 V c t, blk3 V c t, blk4 V c t, blk5 V c t, blk6 V c t]

/-- The one point's block of the output window covers the output array. -/
theorem covered (c : Dev nD) (i : ((cfg3.win 7).arr.view.loc (c.tc : Thread nD τ)).2.ty.Idx) :
    ∃ t : Fin cfg3.N, (cfg3.win 7).flush t = true ∧ i ∈ ((cfg3.win 7).blk t).view.set := by
  refine ⟨t3_0, flush3_7 t3_0, ?_⟩
  show i ∈ ((View.whole main_v73).slice (win3_7.rect t3_0)).set
  rw [View.set_slice_whole, Rect.mem_set_unit]
  obtain ⟨-, -, -, -, -, -, -, ⟨e0, e1⟩⟩ := index_zero t3_0
  have h0 : (i 0).val < 512 := (i 0).isLt
  have h1 : (i 1).val < 8 := (i 1).isLt
  intro a
  match a with
  | ⟨0, _⟩ =>
    show win3_7.index t3_0 (0 : Fin 2) * 512 ≤ (i 0).val ∧ (i 0).val < win3_7.index t3_0 (0 : Fin 2) * 512 + 512
    rw [e0]; omega
  | ⟨1, _⟩ =>
    show win3_7.index t3_0 (1 : Fin 2) * 8 ≤ (i 1).val ∧ (i 1).val < win3_7.index t3_0 (1 : Fin 2) * 8 + 8
    rw [e1]; omega

end Mlp

/-- THE OUTPUT ARRAY AFTER THE REGION is the specification's perceptron of the seven arrays the region found. -/
theorem mlp3 (c : Dev nD) :
    (dat3 (F := Ideal) V c).arrAt 7 cfg3.N
      = Cert.RefSpec.mlp (V c main_v66) (V c main_v67) (V c main_v68) (V c main_v69) (V c main_v70) (V c main_v71)
          (V c main_v72) :=
  (dat3 (F := Ideal) V c).arrAt_eq_of_cover 7 _ (fun t _ => Mlp.flushed_eq V c t) (Mlp.covered c)

end Cert.KernelIdeal.RegionValue

end
-- ==== Proof.lean ====
/-
  A three-layer graph convolution network with a mean pool and a perceptron head: the kernel program against its
  plain reference.

  Each layer maps node features h to  mean(h) · Wrel + brel + h · Wroot, where mean(h) is the sum of the neighbours'
  rows over the arriving edges scaled by the clamped in-degree d = max(deg, 1); two layers are rectified; the node
  features are then averaged per graph and passed through a three-layer perceptron. The kernel program computes each
  layer and the perceptron in a kernel region, on blocks of 5000 node rows, from arrays the host operations around the
  regions prepare (the row gather and scatter-add, the degrees, the narrowed weights); the reference computes
  everything in host operations. Read on the extended reals the two differ in one place: the kernel multiplies an
  aggregated row by the quotient 1 / d computed once, the reference divides the row by d. Since d is at least 1 it is
  not 0, and off 0 the product with 1 / d is the quotient by d at every extended real, so no finiteness of the inputs
  is used (Proof/Law.lean, Proof/Scale.lean).

  The modules: Proof/Spec.lean writes the network once, in the reference's operations, with the scaling as a
  parameter; Proof/RefSide.lean reads the reference's run as that network; Proof/GcBody.lean, Gc0, Gc1, Gc2 and
  Proof/MlpBody.lean, Mlp3 show that a region leaves in its output array the layer (the perceptron) of the arrays it
  found, block by block: a row block's matrix product is the whole product's rows, a narrowing to half precision is
  the identity, a stretched bias row or degree column reads one entry; Proof/KHost1 … KHost4 walk the kernel
  program's buffer contents from boundary to boundary, and Proof/KRun.lean is its run with the result named;
  Proof/Claims.lean states the five claims from these.
-/
import proofs.«126516_j43413529428145_2_alg».proof.Defs
import proofs.«126516_j43413529428145_2_alg».proof.Proof.Gen.Kernel
import proofs.«126516_j43413529428145_2_alg».proof.Proof.Gen.Kernel.Skeleton
import proofs.«126516_j43413529428145_2_alg».proof.Proof.Gen.Kernel.Launch
import proofs.«126516_j43413529428145_2_alg».proof.Proof.Gen.Kernel.Points
import proofs.«126516_j43413529428145_2_alg».proof.Proof.Gen.Kernel.Frame
import proofs.«126516_j43413529428145_2_alg».proof.Proof.Gen.KernelIdeal
import proofs.«126516_j43413529428145_2_alg».proof.Proof.Gen.KernelIdeal.Skeleton
import proofs.«126516_j43413529428145_2_alg».proof.Proof.Gen.KernelIdeal.Launch
import proofs.«126516_j43413529428145_2_alg».proof.Proof.Gen.KernelIdeal.Points
import proofs.«126516_j43413529428145_2_alg».proof.Proof.Gen.KernelIdeal.Frame
import proofs.«126516_j43413529428145_2_alg».proof.Proof.Gen.ReferenceIdeal
import proofs.«126516_j43413529428145_2_alg».proof.Proof.Gen.ReferenceIdeal.Run
import proofs.«126516_j43413529428145_2_alg».proof.Proof.Gen.Pre_finite_inputs
import proofs.«126516_j43413529428145_2_alg».proof.Proof.Claims
import proofs.«126516_j43413529428145_2_alg».proof.Proof.Gc0
import proofs.«126516_j43413529428145_2_alg».proof.Proof.Gc1
import proofs.«126516_j43413529428145_2_alg».proof.Proof.Gc2
import proofs.«126516_j43413529428145_2_alg».proof.Proof.Mlp3
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic (fun V c => Cert.KernelIdeal.RegionValue.gc0 V c) (fun V c => Cert.KernelIdeal.RegionValue.gc1 V c)
      (fun V c => Cert.KernelIdeal.RegionValue.gc2 V c) (fun V c => Cert.KernelIdeal.RegionValue.mlp3 V c)⟩

end Cert.Proof

end
